-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x2048 : Shape := ⟨3, ![16, 2048, 2048]⟩
abbrev S_ : Shape := ⟨0, ![]⟩
abbrev S16x2048 : Shape := ⟨2, ![16, 2048]⟩

class Facts : Prop where
  bcast_S_S16x2048x2048 : S_.BroadcastsInDim S16x2048x2048 (![] : Fin 0 → Fin S16x2048x2048.rank)
  reducesTo_S16x2048x2048_S_d0_1_2 : S16x2048x2048.ReducesTo [0, 1, 2] S_
  h_S_ : 0 < S_.numel
  reducesTo_S16x2048x2048_S16x2048_d1 : S16x2048x2048.ReducesTo [1] S16x2048
  bcast_S_S16x2048 : S_.BroadcastsInDim S16x2048 (![] : Fin 0 → Fin S16x2048.rank)
  reducesTo_S16x2048_S_d0_1 : S16x2048.ReducesTo [0, 1] S_

variable [Facts]

def fn {F : FTy → Type} [FloatOps F] (main_arg0 : FVec F S16x2048x2048 .f32) : IVec S_ 1 :=
  let main_v0 : FVec F S16x2048x2048 .f32 := Host.absf main_arg0
  let main_cst : FVec F S_ .f32 := constant S_ .f32 0x7F800000#32
  let main_v1 : FVec F S16x2048x2048 .f32 := broadcastInDim S16x2048x2048 ![] bcast_S_S16x2048x2048 main_cst
  let main_v2 : IVec S16x2048x2048 1 := cmpf .olt main_v0 main_v1
  let main_c : IVec S_ 1 := constantI S_ 1 1#1
  let main_v3 : IVec S_ 1 := (fun x v => Host.reduce IntOp.andi x v reducesTo_S16x2048x2048_S_d0_1_2 h_S_) main_v2 main_c
  let main_cst_0 : FVec F S_ .f32 := constant S_ .f32 0x00000000#32
  let main_v4 : FVec F S16x2048 .f32 := (fun x v => Host.reduceAdd x v reducesTo_S16x2048x2048_S16x2048_d1 h_S_) main_arg0 main_cst_0
  let main_cst_1 : FVec F S_ .f32 := constant S_ .f32 0x00000000#32
  let main_v5 : FVec F S16x2048 .f32 := broadcastInDim S16x2048 ![] bcast_S_S16x2048 main_cst_1
  let main_v6 : IVec S16x2048 1 := cmpf .oge main_v4 main_v5
  let main_c_2 : IVec S_ 1 := constantI S_ 1 1#1
  let main_v7 : IVec S_ 1 := (fun x v => Host.reduce IntOp.andi x v reducesTo_S16x2048_S_d0_1 h_S_) main_v6 main_c_2
  let main_v8 : IVec S_ 1 := andi main_v3 main_v7
  main_v8
-- ==== Kernel.lean ====
abbrev S16x2048x2048 : Shape := ⟨3, ![16, 2048, 2048]⟩
abbrev S16x1x2048 : Shape := ⟨3, ![16, 1, 2048]⟩
abbrev S1x512x2048 : Shape := ⟨3, ![1, 512, 2048]⟩
abbrev S1x1x2048 : Shape := ⟨3, ![1, 1, 2048]⟩
abbrev S1x2048 : Shape := ⟨2, ![1, 2048]⟩
abbrev S16x2048 : Shape := ⟨2, ![16, 2048]⟩
abbrev S16x2048x1 : Shape := ⟨3, ![16, 2048, 1]⟩
abbrev S1x256x2048 : Shape := ⟨3, ![1, 256, 2048]⟩
abbrev S1x256x1 : Shape := ⟨3, ![1, 256, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S16x1x2048, .f32⟩
  | .hbm, ⟨2, _⟩ => ⟨S16x2048, .f32⟩
  | .hbm, ⟨3, _⟩ => ⟨S16x2048x1, .f32⟩
  | .hbm, ⟨4, _⟩ => ⟨S16x1x2048, .f32⟩
  | .hbm, ⟨5, _⟩ => ⟨S16x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x256x2048, .f32⟩
  | .local _ .vmem, ⟨6, _⟩ => ⟨S1x256x2048, .f32⟩
  | .local _ .vmem, ⟨7, _⟩ => ⟨S1x256x1, .f32⟩
  | .local _ .vmem, ⟨8, _⟩ => ⟨S1x256x1, .f32⟩
  | .local _ .vmem, ⟨9, _⟩ => ⟨S1x1x2048, .f32⟩
  | .local _ .vmem, ⟨10, _⟩ => ⟨S1x1x2048, .f32⟩
  | .local _ .vmem, ⟨11, _⟩ => ⟨S1x256x2048, .f32⟩
  | .local _ .vmem, ⟨12, _⟩ => ⟨S1x256x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  inb_S1x512x2048_S1x512x2048_0_0_0 : ∀ a, (![0, 0, 0] : Fin 3 → Nat) a + S1x512x2048.size a ≤ S1x512x2048.size a
  h_S1x512x2048 : 0 < S1x512x2048.numel
  reduces_S1x512x2048_S1x2048 : S1x512x2048.Reduces [1] S1x2048
  shapeCasts_S1x2048_S1x1x2048 : S1x2048.ShapeCasts S1x1x2048
  shapeCasts_S16x1x2048_S16x2048 : S16x1x2048.ShapeCasts S16x2048
  shapeCasts_S16x2048_S16x2048x1 : S16x2048.ShapeCasts S16x2048x1
  shapeCasts_S16x2048_S16x1x2048 : S16x2048.ShapeCasts S16x1x2048
  iota_S1x256x2048_d1_w32 : S1x256x2048.Iotas .tc 32 [1]
  iota_S1x256x2048_d2_w32 : S1x256x2048.Iotas .tc 32 [2]
  natLt_1_32 : 1 < 32
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  inb_S1x256x2048_S1x256x2048_0_0_0 : ∀ a, (![0, 0, 0] : Fin 3 → Nat) a + S1x256x2048.size a ≤ S1x256x2048.size a
  h_S1x256x2048 : 0 < S1x256x2048.numel
  broadcasts_S1x256x1_S1x256x2048 : S1x256x1.Broadcasts S1x256x2048
  broadcasts_S1x1x2048_S1x256x2048 : S1x1x2048.Broadcasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x2048x2048.size a
  hwx0_0 : ∀ i : grid0.Coords, EltTy.bits .f32 = 32 ∨ (Rect.block (s := S16x2048x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S16x1x2048.size a
  hwx0_1 : ∀ i : grid0.Coords, EltTy.bits .f32 = 32 ∨ (Rect.block (s := S16x1x2048) S1x1x2048.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2048.size a ≤ S16x2048x2048.size a
  hwx1_0 : ∀ i : grid1.Coords, EltTy.bits .f32 = 32 ∨ (Rect.block (s := S16x2048x2048) S1x256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S16x2048x1.size a
  hwx1_1 : ∀ i : grid1.Coords, EltTy.bits .f32 = 32 ∨ (Rect.block (s := S16x2048x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048.size a ≤ S16x1x2048.size a
  hwx1_2 : ∀ i : grid1.Coords, EltTy.bits .f32 = 32 ∨ (Rect.block (s := S16x1x2048) S1x1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S16x2048x2048.size a
  hwx1_3 : ∀ i : grid1.Coords, EltTy.bits .f32 = 32 ∨ (Rect.block (s := S16x2048x2048) S1x256x2048.size (cc1_transform_3 i) (hinb1_3 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S1x256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x256x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16x2048x2048 : Shape := ⟨3, ![16, 2048, 2048]⟩
abbrev S_ : Shape := ⟨0, ![]⟩
abbrev S16x2048 : Shape := ⟨2, ![16, 2048]⟩
abbrev S2048x2048 : Shape := ⟨2, ![2048, 2048]⟩
abbrev S16x2048x1 : Shape := ⟨3, ![16, 2048, 1]⟩
abbrev S16x1x2048 : Shape := ⟨3, ![16, 1, 2048]⟩
abbrev S1x2048x2048 : Shape := ⟨3, ![1, 2048, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S_, .f32⟩
  | .hbm, ⟨2, _⟩ => ⟨S16x2048, .f32⟩
  | .hbm, ⟨3, _⟩ => ⟨S16x2048, .f32⟩
  | .hbm, ⟨4, _⟩ => ⟨S_, .f32⟩
  | .hbm, ⟨5, _⟩ => ⟨S16x2048, .f32⟩
  | .hbm, ⟨6, _⟩ => ⟨S16x2048, .f32⟩
  | .hbm, ⟨7, _⟩ => ⟨S2048x2048, .i32⟩
  | .hbm, ⟨8, _⟩ => ⟨S2048x2048, .i32⟩
  | .hbm, ⟨9, _⟩ => ⟨S_, .i32⟩
  | .hbm, ⟨10, _⟩ => ⟨S2048x2048, .i32⟩
  | .hbm, ⟨11, _⟩ => ⟨S2048x2048, .i32⟩
  | .hbm, ⟨12, _⟩ => ⟨S2048x2048, .i1⟩
  | .hbm, ⟨13, _⟩ => ⟨S2048x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S1x2048x2048, .f32⟩
  | .hbm, ⟨21, _⟩ => ⟨S16x2048x2048, .f32⟩
  | .hbm, ⟨22, _⟩ => ⟨S16x2048x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  reducesTo_S16x2048x2048_S16x2048_d1 : S16x2048x2048.ReducesTo [1] S16x2048
  h_S_ : 0 < S_.numel
  bcast_S_S16x2048 : S_.BroadcastsInDim S16x2048 (![] : Fin 0 → Fin S16x2048.rank)
  bcast_S_S2048x2048 : S_.BroadcastsInDim S2048x2048 (![] : Fin 0 → Fin S2048x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S2048x2048_S1x2048x2048_1_2 : S2048x2048.BroadcastsInDim S1x2048x2048 (![1, 2] : Fin 2 → Fin S1x2048x2048.rank)
  bcast_S1x2048x2048_S16x2048x2048_0_1_2 : S1x2048x2048.BroadcastsInDim S16x2048x2048 (![0, 1, 2] : Fin 3 → Fin S16x2048x2048.rank)

variable [Facts₀]

class Facts : Prop extends Facts₀ where

variable [Facts]
-- ==== Proof.DegBodyW.lean ====
/-
  The first region: the degree kernel.  Its grid is 16 graphs × 4 blocks of 512 rows; the body keeps a 1×1×2048
  accumulator in a scratch buffer that lives from point to point.

  At the first block of a graph the body zeroes the accumulator; at every block it adds to the accumulator the sums
  of the block's 2048 columns over the block's 512 rows; at the last block it stores the reciprocal square root of the
  accumulator into the output's buffer, which is written back there and only there (at the other points the output's
  buffer is handed back as found).  So after point `n` the accumulator holds `accAt n`: the block's column sums added
  to zero at a graph's first block, and to what the point before left otherwise.  This module states the body's three
  triples (first block, inner block, last block) with the contents they leave, the accumulator point by point, the
  region's invariant (the accumulator at `accAt`, the other scoped buffers and the generator register untouched), the
  proof data at any entry contents `V`, and the body obligation.
-/
import proofs.«171109_j249108103362_2_alg».proof.Proof.Gen.Kernel.Launch
import proofs.«171109_j249108103362_2_alg».proof.Proof.Gen.Kernel.Skeleton
import proofs.«171109_j249108103362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the graph's first block of rows", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the graph's last block of rows". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input window is never idle. -/
theorem liveAt0_0 : ∀ t : Fin cfg0.N, cfg0.idle 0 (grid0.coords t) = false := by decide +kernel
/-- Off a graph's last block the output window is idle (the body stores nothing into it) and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At a graph's last block it is live. -/
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0 : Memref sig .tc .vmem S1x1x2048 .f32 := Memref.whole cc0_scratch0

/-- The core's scoped buffers that are neither this region's staging buffers nor the accumulator — the second
    region's staging buffers — each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain region invariant with the accumulator as a memref owned at some contents. -/
theorem PhiA0_eq (c : Dev nD) :
    (Pipeline.ΦA spec0 c : sProp 𝕄)
      = iprop(iprop((∃ d, owns (c : Thread nD τ) scM0 fullShare d) ∗ otherScoped c) ∗ (∃ r, prngReg c r)) := by
  unfold Pipeline.ΦA otherScoped; rw [scopedRest0_eq]; simp only [scM0, owns_whole]; try rfl

/-! ## The body's three triples -/

set_option maxHeartbeats 1000000 in
/-- At a graph's first block: the accumulator, found at anything, is zeroed and then holds the block's column sums
    added to zero; the output's buffer is handed back untouched. -/
theorem run0_first (c : Dev nD) (E : Set ℕ) (i : grid0.Coords)
    (arg2 : Memref sig .tc .vmem S1x512x2048 .f32) (harg2 : arg2.IsWhole) (arg3 : Memref sig .tc .vmem S1x1x2048 .f32) (harg3 : arg3.IsWhole)
    (arg4 : Memref sig .tc .vmem S1x1x2048 .f32) (harg4 : arg4.IsWhole) (hc0 : cond0_0 i) (hc1 : ¬cond0_1 i)
    (x0 : Vec F S1x512x2048 .f32) (xi1 : Vec F S1x1x2048 .f32) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1
            ∗ owns (c : Thread nD τ) arg4 fullShare (k0_pay2 (k0_pay1 (F := F)) x0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%ds0, %fs0, -, HS0⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (fun y => ⟨_, List.mem_cons_self, View.mem_set_unit_zero (by funext a; fin_cases a <;> rfl) inb_S1x1x2048_S1x1x2048_0_0_0 y⟩),
    View.canon_cons_unit_zero (by funext a; fin_cases a <;> rfl)]
  sl_unfold_run_names
  rw [View.readCov_unit_zero _ (by funext a; fin_cases a <;> rfl), View.readAt_eq_ld, View.ld_unit_zero (S := S1x512x2048) (by funext a; fin_cases a <;> rfl)]

set_option maxHeartbeats 1000000 in
/-- At an inner block: the accumulator, found at `xs0`, ends at `xs0` plus the block's column sums; the output's
    buffer is handed back untouched. -/
theorem run0_inner (c : Dev nD) (E : Set ℕ) (i : grid0.Coords)
    (arg2 : Memref sig .tc .vmem S1x512x2048 .f32) (harg2 : arg2.IsWhole) (arg3 : Memref sig .tc .vmem S1x1x2048 .f32) (harg3 : arg3.IsWhole)
    (arg4 : Memref sig .tc .vmem S1x1x2048 .f32) (harg4 : arg4.IsWhole) (hc0 : ¬cond0_0 i) (hc1 : ¬cond0_1 i)
    (x0 : Vec F S1x512x2048 .f32) (xi1 : Vec F S1x1x2048 .f32) (xs0 : Vec F S1x1x2048 .f32) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1
            ∗ owns (c : Thread nD τ) arg4 fullShare (k0_pay2 xs0 x0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  sl_unfold_run_names
  rw [View.read_writes_eq_canon _ _ _ (fun y => ⟨_, List.mem_cons_self, View.mem_set_unit_zero (by funext a; fin_cases a <;> rfl) inb_S1x1x2048_S1x1x2048_0_0_0 y⟩),
    View.canon_cons_unit_zero (by funext a; fin_cases a <;> rfl)]
  rw [View.readAt_eq_ld, View.readAt_eq_ld, View.ld_unit_zero (S := S1x1x2048) (by funext a; fin_cases a <;> rfl), View.ld_unit_zero (S := S1x512x2048) (by funext a; fin_cases a <;> rfl)]

set_option maxHeartbeats 1000000 in
/-- At a graph's last block: the accumulator ends at `xs0` plus the block's column sums, and the output's buffer at
    the reciprocal square root of that. -/
theorem run0_last (c : Dev nD) (E : Set ℕ) (i : grid0.Coords)
    (arg2 : Memref sig .tc .vmem S1x512x2048 .f32) (harg2 : arg2.IsWhole) (arg3 : Memref sig .tc .vmem S1x1x2048 .f32) (harg3 : arg3.IsWhole)
    (arg4 : Memref sig .tc .vmem S1x1x2048 .f32) (harg4 : arg4.IsWhole) (hc0 : ¬cond0_0 i) (hc1 : cond0_1 i)
    (x0 : Vec F S1x512x2048 .f32) (xs0 : Vec F S1x1x2048 .f32) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 xs0 x0))
            ∗ owns (c : Thread nD τ) arg4 fullShare (k0_pay2 xs0 x0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%d1, %f1, -, H1⟩, ⟨%fs0, %hfs0, HS0⟩, Hk⟩
  subst hf0; subst hfs0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_cons_self, View.mem_set_unit_zero (by funext a; fin_cases a <;> rfl) inb_S1x1x2048_S1x1x2048_0_0_0 y⟩),
      View.canon_cons_unit_zero (by funext a; fin_cases a <;> rfl)]
    sl_unfold_run_names
    rw [View.readCov_unit_zero _ (by funext a; fin_cases a <;> rfl), View.readAt_eq_ld, View.readAt_eq_ld, View.ld_unit_zero (S := S1x1x2048) (by funext a; fin_cases a <;> rfl),
      View.ld_unit_zero (S := S1x512x2048) (by funext a; fin_cases a <;> rfl)]
  iexists _; isplitr
  swap; · iexact HS0
  ipureintro
  sl_unfold_run_names
  rw [View.read_writes_eq_canon _ _ _ (fun y => ⟨_, List.mem_cons_self, View.mem_set_unit_zero (by funext a; fin_cases a <;> rfl) inb_S1x1x2048_S1x1x2048_0_0_0 y⟩),
    View.canon_cons_unit_zero (by funext a; fin_cases a <;> rfl)]
  rw [View.readAt_eq_ld, View.readAt_eq_ld, View.ld_unit_zero (S := S1x1x2048) (by funext a; fin_cases a <;> rfl), View.ld_unit_zero (S := S1x512x2048) (by funext a; fin_cases a <;> rfl)]

/-! ## The accumulator point by point -/

/-- What the accumulator holds after the body at position `n`: at a graph's first block the block's column sums
    added to zero, otherwise added to what the point before left. -/
def accAt (c : Dev nD) : (n : ℕ) → n < cfg0.N → Vec F S1x1x2048 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (accAt c n (Nat.lt_of_succ_lt hn)) (iblk0 V c 0 ⟨n + 1, hn⟩)

theorem accAt_first (c : Dev nD) (t : Fin cfg0.N) (h0 : t.val % 4 = 0) :
    accAt V c t.val t.isLt = k0_pay2 (k0_pay1 (F := F)) (iblk0 V c 0 t) := by
  obtain ⟨n, hn⟩ := t
  cases n with
  | zero => rfl
  | succ n => exact if_pos h0

theorem accAt_next (c : Dev nD) (t : Fin cfg0.N) (h0 : ¬t.val % 4 = 0) :
    accAt V c t.val t.isLt = k0_pay2 (accAt V c (t.val - 1) (Nat.lt_of_le_of_lt (Nat.sub_le _ _) t.isLt)) (iblk0 V c 0 t) := by
  obtain ⟨n, hn⟩ := t
  cases n with
  | zero => exact absurd (Nat.zero_mod _) h0
  | succ n => exact if_neg h0

/-- The region's invariant before position `n`: before the first point the plain one (every scoped buffer at
    anything); afterwards the accumulator at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ otherScoped c) ∗ (∃ r, prngReg c r)) := by
  cases n with
  | zero => exact absurd rfl hz
  | succ n => rfl

/-! ## The region's proof data -/

/-- The proof data of the region on core `c`: the arrays as the region finds them; after the body at point `t` the
    input's buffer at its block and the output's at the reciprocal square root of the accumulator there (consulted
    only where the output is live: a graph's last block); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point, by the block's place in its graph: the invariant hands the body the accumulator at what
    the point before left (at anything before the first point) and takes it back at this point's contents; the
    output's buffer comes back as found off a graph's last block, and at the reciprocal square root there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 64 := lt_of_lt_of_eq t.isLt (show cfg0.N = 64 from N_0)
  by_cases h1 : t.val % 4 = 3
  · have h0 : ¬t.val % 4 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [accAt_next V c t h0, PhiS_castSucc V c t, PhiS_pos V c _ _ hz]
    iintro ⟨⟨⟨HS0, Hoth⟩, Hg⟩, Ho, ⟨%d0, H0⟩, ⟨%d1, H1⟩⟩
    iapply (run0_last c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · rw [Dat.leavesExact_idle (dat0 V c) 1 t (idleAt0_1 t (fun h => h1 ((hcond0_1 t).mp h))) (noFlush0_1 t (fun h => h1 ((hcond0_1 t).mp h)))]
    by_cases h0 : t.val % 4 = 0
    · rw [accAt_first V c t h0, PhiS_castSucc V c t]
      by_cases hz : t.val = 0
      · rw [PhiS_zero V c _ _ hz, PhiA0_eq]
        iintro ⟨⟨⟨HS0, Hoth⟩, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
      · rw [PhiS_pos V c _ _ hz]
        iintro ⟨⟨⟨HS0, Hoth⟩, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexists _; iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
    · have hz : t.val ≠ 0 := fun e => h0 (by rw [e])
      rw [accAt_next V c t h0, PhiS_castSucc V c t, PhiS_pos V c _ _ hz]
      iintro ⟨⟨⟨HS0, Hoth⟩, Hg⟩, Ho, ⟨%d0, H0⟩, ⟨%d1, H1⟩⟩
      iapply (run0_inner c Set.univ (grid0.coords t) _ _ _ _ _ _ (fun h => h0 ((hcond0_0 t).mp h)) (fun h => h1 ((hcond0_1 t).mp h)) (iblk0 V c 0 t) _ _ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, Hoth⟩, Hg⟩
  isplitl [HS0 Hoth]
  · isplitl [HS0]; · iexists _; iexact HS0
    iexact Hoth
  iexact Hg

end Cert.Kernel.Frame

end
-- ==== Proof.LapBodyW.lean ====
/-
  The second region: the Laplacian tile kernel, one grid point per block of 256 rows of one graph.

  At a point the body reads three input blocks — a 1×256×2048 tile of the adjacency array, the 1×256×1 column of
  row scalings and the 1×1×2048 row of column scalings — and stores one 1×256×2048 tile: the identity's tile minus
  the scaled adjacency tile.  Nothing is kept from point to point, so what the output's buffer holds after the body
  is a function of the three input blocks and of the point (the identity's tile depends on which rows the point
  covers).  This module states that function, the body's triple, the proof data of the region at any entry contents
  `V`, and the body obligation at every point.
-/
import proofs.«171109_j249108103362_2_alg».proof.Proof.Gen.Kernel.Launch
import proofs.«171109_j249108103362_2_alg».proof.Proof.Gen.Kernel.Skeleton
import proofs.«171109_j249108103362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the block was fetched there or the
    block index did not move since the point before (the row of column scalings moves once per graph). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rTile : Rect S1x256x2048 := Rect.unit (s := S1x256x2048) ![0, 0, 0] S1x256x2048.size inb_S1x256x2048_S1x256x2048_0_0_0
abbrev rCol : Rect S1x256x1 := Rect.unit (s := S1x256x1) ![0, 0, 0] S1x256x1.size inb_S1x256x1_S1x256x1_0_0_0
abbrev rRow : Rect S1x1x2048 := Rect.unit (s := S1x1x2048) ![0, 0, 0] S1x1x2048.size inb_S1x1x2048_S1x1x2048_0_0_0

/-- What the body leaves in the output's buffer at grid coordinates `i`, from the three input blocks: its one
    store, through the whole buffer. -/
def tile1 (i : grid1.Coords) (x0 : Vec F S1x256x2048 .f32) (x1 : Vec F S1x256x1 .f32) (x2 : Vec F S1x1x2048 .f32) : Vec F S1x256x2048 .f32 :=
  View.canon [⟨rTile, k1_pay1 i (View.ld x1 rCol) (View.ld x0 rTile) (View.ld x2 rRow)⟩]

/-- The store covers the buffer. -/
theorem cover1 (p0 : Vec F S1x256x2048 .f32) (y : S1x256x2048.Idx) :
    ∃ pc ∈ ([⟨rTile, p0⟩] : List (View.Piece (Elt F) S1x256x2048 .f32)), y ∈ pc.1.set :=
  ⟨_, List.mem_singleton_self _, View.mem_set_unit_zero (by funext a; fin_cases a <;> rfl) inb_S1x256x2048_S1x256x2048_0_0_0 y⟩

/-- So the buffer holds the stored value itself: the tile as one pure term of the three blocks. -/
theorem tile1_eq (i : grid1.Coords) (x0 : Vec F S1x256x2048 .f32) (x1 : Vec F S1x256x1 .f32) (x2 : Vec F S1x1x2048 .f32) :
    tile1 i x0 x1 x2 = k1_pay1 i x1 x0 x2 := by
  unfold tile1
  rw [View.canon_unit_zero (by funext a; fin_cases a <;> rfl)]
  rw [View.ld_unit_zero (S := S1x256x1) (by funext a; fin_cases a <;> rfl), View.ld_unit_zero (S := S1x256x2048) (by funext a; fin_cases a <;> rfl),
    View.ld_unit_zero (S := S1x1x2048) (by funext a; fin_cases a <;> rfl)]

/-! ## The body's triple -/

set_option maxHeartbeats 1000000 in
/-- On whole staging memrefs, the inputs' at contents `x0 x1 x2` and the output's at anything, the body runs to the
    continuation with the inputs' as they were and the output's at `tile1` of them. -/
theorem sound_kernel1 (c : Dev nD) (E : Set ℕ) (i : grid1.Coords)
    (arg2 : Memref sig .tc .vmem S1x256x2048 .f32) (harg2 : arg2.IsWhole) (arg3 : Memref sig .tc .vmem S1x256x1 .f32) (harg3 : arg3.IsWhole)
    (arg4 : Memref sig .tc .vmem S1x1x2048 .f32) (harg4 : arg4.IsWhole) (arg5 : Memref sig .tc .vmem S1x256x2048 .f32) (harg5 : arg5.IsWhole)
    (x0 : Vec F S1x256x2048 .f32) (x1 : Vec F S1x256x1 .f32) (x2 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile1 i x0 x1 x2)) -∗ K ⟨⟩))
      ⊢ wp frame (wpE (defs₀ (F := F)) Variants.none c none) E (cc1__laplacian_kernel i arg2 harg2 arg3 harg3 arg4 harg4 arg5 harg5) K := by
  simp only [cc1__laplacian_kernel_eq_skeleton]; unfold cc1__laplacian_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The region's proof data -/

/-- The proof data of the region on core `c`: the arrays as the region finds them; after the body at point `t`
    each input's buffer at its block and the output's at `tile1` of the three blocks; the invariant the plain one
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tile1 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = tile1 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.RunW.lean ====
/-
  The whole program as a chain of three items — the degree region, three host reshapes, the Laplacian region — and
  its run from any launch memory.

  The buffers' contents at the four boundaries are a fold from the launch memory: a region leaves its arrays at what
  its write-backs leave (the inputs as entered, the output's blocks laid over the entry contents) and every other
  buffer as entered; the host stretch applies its three reshapes.  Each region is entered from "every unscoped buffer
  at the boundary's contents, the generator register at some state, nothing owed" and left at the same at the next
  boundary, so the items chain.  The run's conclusion names every unscoped buffer's final contents; the argument
  array walks back through the fold to the launch memory, and the result array is the second region's output.
-/
import proofs.«171109_j249108103362_2_alg».proof.Proof.DegBodyW
import proofs.«171109_j249108103362_2_alg».proof.Proof.LapBodyW

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- The same read at the core's own references: what the first region's proof data take. -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the three host reshapes: the second region's entry. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- No reshape writes the argument array. -/
theorem W2_main_arg0 (c : Dev nD) : W2 m c (Proc.devRef .tc main_arg0) = W1 m c (Proc.devRef .tc main_arg0) :=
  StableHlo.after_of_forall_not_mem (b := Proc.devRef .tc main_arg0) _ _ (List.forall_iff_forall_mem.mp (by
    simp only [hostOps1, List.Forall, StableHlo.reshape_writes, Finset.mem_singleton]
    repeat' apply And.intro
    all_goals exact StableHlo.devRef_ne_of_ne (by decide)))

/-- The argument array ends as launched: both regions read it through an input window, no reshape writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_main_arg0 m c
    _ = W0 m c (Proc.devRef .tc main_arg0) := (W1_arr m c 0).trans (((dat0 (V0 m) c).arrAt_in 0 rfl _).trans (A_eq0 (V0 m) c 0))
    _ = m ((c : Thread nD τ).loc main_arg0) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- Region 0 over the thread state: entered from every unscoped buffer at `W0`, left at `W1`. Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays
    are split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and in every final state the result array holds the second region's output array after its last
    write-back and the argument array is as launched. -/
theorem run : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v4 (by decide))).trans (W3_arr m c 3),
       (h c _ (mem_uc main_arg0 (by decide))).trans (W3_main_arg0 m c)⟩)

/-- THE FRAME: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.Kernel.Frame

end
-- ==== Proof.DegBody.lean ====
/-
  The first region: the degree kernel.  Its grid is 16 graphs × 4 blocks of 512 rows; the body keeps a 1×1×2048
  accumulator in a scratch buffer that lives from point to point.

  At the first block of a graph the body zeroes the accumulator; at every block it adds to the accumulator the sums
  of the block's 2048 columns over the block's 512 rows; at the last block it stores the reciprocal square root of the
  accumulator into the output's buffer, which is written back there and only there (at the other points the output's
  buffer is handed back as found).  So after point `n` the accumulator holds `accAt n`: the block's column sums added
  to zero at a graph's first block, and to what the point before left otherwise.  This module states the body's three
  triples (first block, inner block, last block) with the contents they leave, the accumulator point by point, the
  region's invariant (the accumulator at `accAt`, the other scoped buffers and the generator register untouched), the
  proof data at any entry contents `V`, and the body obligation.
-/
import proofs.«171109_j249108103362_2_alg».proof.Proof.Gen.KernelIdeal.Launch
import proofs.«171109_j249108103362_2_alg».proof.Proof.Gen.KernelIdeal.Skeleton
import proofs.«171109_j249108103362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the graph's first block of rows", as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the graph's last block of rows". -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-- The input window is never idle. -/
theorem liveAt0_0 : ∀ t : Fin cfg0.N, cfg0.idle 0 (grid0.coords t) = false := by decide +kernel
/-- Off a graph's last block the output window is idle (the body stores nothing into it) and not written back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At a graph's last block it is live. -/
theorem liveAt0_1 : ∀ t : Fin cfg0.N, cond0_1 (grid0.coords t) → cfg0.idle 1 (grid0.coords t) = false := by decide +kernel

/-! ## The memrefs the body is called with -/

abbrev ms0_0 (t : Fin cfg0.N) : Memref sig .tc .vmem S1x512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x2048 .f32 := win0_1.stage (cfg0.slots t 1)
abbrev hs0_1 (t : Fin cfg0.N) : (ms0_1 t).IsWhole := hstage0_1 ((cfg0.slots t 1).cast nbuf0_1)
/-- The accumulator: a whole scoped buffer of the kernel's own. -/
abbrev scM0 : Memref sig .tc .vmem S1x1x2048 .f32 := Memref.whole cc0_scratch0

/-- The core's scoped buffers that are neither this region's staging buffers nor the accumulator — the second
    region's staging buffers — each at some contents. -/
def otherScoped (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The plain region invariant with the accumulator as a memref owned at some contents. -/
theorem PhiA0_eq (c : Dev nD) :
    (Pipeline.ΦA spec0 c : sProp 𝕄)
      = iprop(iprop((∃ d, owns (c : Thread nD τ) scM0 fullShare d) ∗ otherScoped c) ∗ (∃ r, prngReg c r)) := by
  unfold Pipeline.ΦA otherScoped; rw [scopedRest0_eq]; simp only [scM0, owns_whole]; try rfl

/-! ## The body's three triples -/

set_option maxHeartbeats 1000000 in
/-- At a graph's first block: the accumulator, found at anything, is zeroed and then holds the block's column sums
    added to zero; the output's buffer is handed back untouched. -/
theorem run0_first (c : Dev nD) (E : Set ℕ) (i : grid0.Coords)
    (arg2 : Memref sig .tc .vmem S1x512x2048 .f32) (harg2 : arg2.IsWhole) (arg3 : Memref sig .tc .vmem S1x1x2048 .f32) (harg3 : arg3.IsWhole)
    (arg4 : Memref sig .tc .vmem S1x1x2048 .f32) (harg4 : arg4.IsWhole) (hc0 : cond0_0 i) (hc1 : ¬cond0_1 i)
    (x0 : Vec F S1x512x2048 .f32) (xi1 : Vec F S1x1x2048 .f32) (K : PUnit → sProp 𝕄) :
    iprop(owns (c : Thread nD τ) arg2 fullShare x0 ∗ owns (c : Thread nD τ) arg3 fullShare xi1 ∗ (∃ d, owns (c : Thread nD τ) arg4 fullShare d)
        ∗ (iprop(owns (c : Thread nD τ) arg2 fullShare x0 ∗ owns (c : Thread nD τ) arg3 fullShare xi1
            ∗ owns (c : Thread nD τ) arg4 fullShare (k0_pay2 (k0_pay1 (F := F)) x0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%ds0, %fs0, -, HS0⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  rw [View.read_writes_eq_canon _ _ _ (fun y => ⟨_, List.mem_cons_self, View.mem_set_unit_zero (by funext a; fin_cases a <;> rfl) inb_S1x1x2048_S1x1x2048_0_0_0 y⟩),
    View.canon_cons_unit_zero (by funext a; fin_cases a <;> rfl)]
  sl_unfold_run_names
  rw [View.readCov_unit_zero _ (by funext a; fin_cases a <;> rfl), View.readAt_eq_ld, View.ld_unit_zero (S := S1x512x2048) (by funext a; fin_cases a <;> rfl)]

set_option maxHeartbeats 1000000 in
/-- At an inner block: the accumulator, found at `xs0`, ends at `xs0` plus the block's column sums; the output's
    buffer is handed back untouched. -/
theorem run0_inner (c : Dev nD) (E : Set ℕ) (i : grid0.Coords)
    (arg2 : Memref sig .tc .vmem S1x512x2048 .f32) (harg2 : arg2.IsWhole) (arg3 : Memref sig .tc .vmem S1x1x2048 .f32) (harg3 : arg3.IsWhole)
    (arg4 : Memref sig .tc .vmem S1x1x2048 .f32) (harg4 : arg4.IsWhole) (hc0 : ¬cond0_0 i) (hc1 : ¬cond0_1 i)
    (x0 : Vec F S1x512x2048 .f32) (xi1 : Vec F S1x1x2048 .f32) (xs0 : Vec F S1x1x2048 .f32) (K : PUnit → sProp 𝕄) :
    iprop(owns (c : Thread nD τ) arg2 fullShare x0 ∗ owns (c : Thread nD τ) arg3 fullShare xi1 ∗ owns (c : Thread nD τ) arg4 fullShare xs0
        ∗ (iprop(owns (c : Thread nD τ) arg2 fullShare x0 ∗ owns (c : Thread nD τ) arg3 fullShare xi1
            ∗ owns (c : Thread nD τ) arg4 fullShare (k0_pay2 xs0 x0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%f1, %hf1, H1⟩, ⟨%fs0, %hfs0, HS0⟩, Hk⟩
  subst hf0; subst hf1; subst hfs0
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS0
  ipureintro
  sl_unfold_run_names
  rw [View.read_writes_eq_canon _ _ _ (fun y => ⟨_, List.mem_cons_self, View.mem_set_unit_zero (by funext a; fin_cases a <;> rfl) inb_S1x1x2048_S1x1x2048_0_0_0 y⟩),
    View.canon_cons_unit_zero (by funext a; fin_cases a <;> rfl)]
  rw [View.readAt_eq_ld, View.readAt_eq_ld, View.ld_unit_zero (S := S1x1x2048) (by funext a; fin_cases a <;> rfl), View.ld_unit_zero (S := S1x512x2048) (by funext a; fin_cases a <;> rfl)]

set_option maxHeartbeats 1000000 in
/-- At a graph's last block: the accumulator ends at `xs0` plus the block's column sums, and the output's buffer at
    the reciprocal square root of that. -/
theorem run0_last (c : Dev nD) (E : Set ℕ) (i : grid0.Coords)
    (arg2 : Memref sig .tc .vmem S1x512x2048 .f32) (harg2 : arg2.IsWhole) (arg3 : Memref sig .tc .vmem S1x1x2048 .f32) (harg3 : arg3.IsWhole)
    (arg4 : Memref sig .tc .vmem S1x1x2048 .f32) (harg4 : arg4.IsWhole) (hc0 : ¬cond0_0 i) (hc1 : cond0_1 i)
    (x0 : Vec F S1x512x2048 .f32) (xs0 : Vec F S1x1x2048 .f32) (K : PUnit → sProp 𝕄) :
    iprop(owns (c : Thread nD τ) arg2 fullShare x0 ∗ (∃ d, owns (c : Thread nD τ) arg3 fullShare d) ∗ owns (c : Thread nD τ) arg4 fullShare xs0
        ∗ (iprop(owns (c : Thread nD τ) arg2 fullShare x0 ∗ owns (c : Thread nD τ) arg3 fullShare (k0_pay3 (k0_pay2 xs0 x0))
            ∗ owns (c : Thread nD τ) arg4 fullShare (k0_pay2 xs0 x0)) -∗ K ⟨⟩))
      ⊢ wp frame (wpE (defs₀ (F := F)) Variants.none c none) E (cc0__deg_kernel i arg2 harg2 arg3 harg3 arg4 harg4) K := by
  simp only [cc0__deg_kernel_eq_skeleton]; unfold cc0__deg_kernel_skel
  unfold owns
  iintro ⟨⟨%f0, %hf0, H0⟩, ⟨%d1, %f1, -, H1⟩, ⟨%fs0, %hfs0, HS0⟩, Hk⟩
  subst hf0; subst hfs0
  sl_exec (disch := first | exact hc0 | exact hc1)
  sl_step
  iapply Hk
  isplitl [H0]
  · iexists f0; isplitr; · ipureintro; rfl
    iexact H0
  isplitl [H1]
  · iexists _; isplitr
    swap; · iexact H1
    ipureintro
    rw [View.read_writes_eq_canon _ _ _ (fun y => ⟨_, List.mem_cons_self, View.mem_set_unit_zero (by funext a; fin_cases a <;> rfl) inb_S1x1x2048_S1x1x2048_0_0_0 y⟩),
      View.canon_cons_unit_zero (by funext a; fin_cases a <;> rfl)]
    sl_unfold_run_names
    rw [View.readCov_unit_zero _ (by funext a; fin_cases a <;> rfl), View.readAt_eq_ld, View.readAt_eq_ld, View.ld_unit_zero (S := S1x1x2048) (by funext a; fin_cases a <;> rfl),
      View.ld_unit_zero (S := S1x512x2048) (by funext a; fin_cases a <;> rfl)]
  iexists _; isplitr
  swap; · iexact HS0
  ipureintro
  sl_unfold_run_names
  rw [View.read_writes_eq_canon _ _ _ (fun y => ⟨_, List.mem_cons_self, View.mem_set_unit_zero (by funext a; fin_cases a <;> rfl) inb_S1x1x2048_S1x1x2048_0_0_0 y⟩),
    View.canon_cons_unit_zero (by funext a; fin_cases a <;> rfl)]
  rw [View.readAt_eq_ld, View.readAt_eq_ld, View.ld_unit_zero (S := S1x1x2048) (by funext a; fin_cases a <;> rfl), View.ld_unit_zero (S := S1x512x2048) (by funext a; fin_cases a <;> rfl)]

/-! ## The accumulator point by point -/

/-- What the accumulator holds after the body at position `n`: at a graph's first block the block's column sums
    added to zero, otherwise added to what the point before left. -/
def accAt (c : Dev nD) : (n : ℕ) → n < cfg0.N → Vec F S1x1x2048 .f32
  | 0, hn => k0_pay2 (k0_pay1 (F := F)) (iblk0 V c 0 ⟨0, hn⟩)
  | n + 1, hn =>
    if (n + 1) % 4 = 0 then k0_pay2 (k0_pay1 (F := F)) (iblk0 V c 0 ⟨n + 1, hn⟩)
    else k0_pay2 (accAt c n (Nat.lt_of_succ_lt hn)) (iblk0 V c 0 ⟨n + 1, hn⟩)

theorem accAt_first (c : Dev nD) (t : Fin cfg0.N) (h0 : t.val % 4 = 0) :
    accAt V c t.val t.isLt = k0_pay2 (k0_pay1 (F := F)) (iblk0 V c 0 t) := by
  obtain ⟨n, hn⟩ := t
  cases n with
  | zero => rfl
  | succ n => exact if_pos h0

theorem accAt_next (c : Dev nD) (t : Fin cfg0.N) (h0 : ¬t.val % 4 = 0) :
    accAt V c t.val t.isLt = k0_pay2 (accAt V c (t.val - 1) (Nat.lt_of_le_of_lt (Nat.sub_le _ _) t.isLt)) (iblk0 V c 0 t) := by
  obtain ⟨n, hn⟩ := t
  cases n with
  | zero => exact absurd (Nat.zero_mod _) h0
  | succ n => exact if_neg h0

/-- The region's invariant before position `n`: before the first point the plain one (every scoped buffer at
    anything); afterwards the accumulator at what the point before left, the other scoped buffers at anything, the
    generator register at some state. -/
def PhiS (c : Dev nD) : (n : ℕ) → n ≤ cfg0.N → sProp 𝕄
  | 0, _ => Pipeline.ΦA spec0 c
  | n + 1, hn => iprop(iprop(owns (c : Thread nD τ) scM0 fullShare (accAt V c n hn) ∗ otherScoped c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare (accAt V c n hn) ∗ otherScoped c) ∗ (∃ r, prngReg c r)) := rfl

theorem PhiS_pos (c : Dev nD) (n : ℕ) (h : n ≤ cfg0.N) (hz : n ≠ 0) :
    PhiS V c n h = iprop(iprop(owns (c : Thread nD τ) scM0 fullShare (accAt V c (n - 1) (by omega)) ∗ otherScoped c) ∗ (∃ r, prngReg c r)) := by
  cases n with
  | zero => exact absurd rfl hz
  | succ n => rfl

/-! ## The region's proof data -/

/-- The proof data of the region on core `c`: the arrays as the region finds them; after the body at point `t` the
    input's buffer at its block and the output's at the reciprocal square root of the accumulator there (consulted
    only where the output is live: a graph's last block); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay3 (accAt V c t.val t.isLt)
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = k0_pay3 (accAt V c t.val t.isLt) := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point, by the block's place in its graph: the invariant hands the body the accumulator at what
    the point before left (at anything before the first point) and takes it back at this point's contents; the
    output's buffer comes back as found off a graph's last block, and at the reciprocal square root there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
    unfold Dat.leavesExact; rw [liveAt0_0 t], after0_0]
  have hN : t.val < 64 := lt_of_lt_of_eq t.isLt (show cfg0.N = 64 from N_0)
  by_cases h1 : t.val % 4 = 3
  · have h0 : ¬t.val % 4 = 0 := by omega
    have hz : t.val ≠ 0 := by omega
    rw [show (dat0 V c).leavesExact 1 t = owns (c : Thread nD τ) (ms0_1 t) fullShare ((dat0 V c).after 1 t) from by
      unfold Dat.leavesExact; rw [liveAt0_1 t ((hcond0_1 t).mpr h1)], after0_1]
    rw [accAt_next V c t h0, PhiS_castSucc V c t, PhiS_pos V c _ _ hz]
    iintro ⟨⟨⟨HS0, Hoth⟩, Hg⟩, Ho, ⟨%d0, H0⟩, ⟨%d1, H1⟩⟩
    iapply (run0_last c Set.univ (grid0.coords t) _ _ _ _ _ _ (fun h => h0 ((hcond0_0 t).mp h)) ((hcond0_1 t).mpr h1) (iblk0 V c 0 t) _ _)
    isplitl [H0]; · iexact H0
    isplitl [H1]; · iexists _; iexact H1
    isplitl [HS0]; · iexact HS0
    iintro ⟨H0, H1, HS0⟩
    isplitl [HS0 Hoth Hg]
    · isplitl [HS0 Hoth]
      · isplitl [HS0]; · iexact HS0
        iexact Hoth
      iexact Hg
    isplitl [Ho]; · iexact Ho
    isplitl [H0]; · iexact H0
    iexact H1
  · rw [Dat.leavesExact_idle (dat0 V c) 1 t (idleAt0_1 t (fun h => h1 ((hcond0_1 t).mp h))) (noFlush0_1 t (fun h => h1 ((hcond0_1 t).mp h)))]
    by_cases h0 : t.val % 4 = 0
    · rw [accAt_first V c t h0, PhiS_castSucc V c t]
      by_cases hz : t.val = 0
      · rw [PhiS_zero V c _ _ hz, PhiA0_eq]
        iintro ⟨⟨⟨HS0, Hoth⟩, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
      · rw [PhiS_pos V c _ _ hz]
        iintro ⟨⟨⟨HS0, Hoth⟩, Hg⟩, Ho, ⟨%d0, H0⟩, ⟨%d1, H1⟩⟩
        iapply (run0_first c Set.univ (grid0.coords t) _ _ _ _ _ _ ((hcond0_0 t).mpr h0) (fun h => h1 ((hcond0_1 t).mp h)) (iblk0 V c 0 t) _ _)
        isplitl [H0]; · iexact H0
        isplitl [H1]; · iexact H1
        isplitl [HS0]; · iexists _; iexact HS0
        iintro ⟨H0, H1, HS0⟩
        isplitl [HS0 Hoth Hg]
        · isplitl [HS0 Hoth]
          · isplitl [HS0]; · iexact HS0
            iexact Hoth
          iexact Hg
        isplitl [Ho]; · iexact Ho
        isplitl [H0]; · iexact H0
        iexists _; iexact H1
    · have hz : t.val ≠ 0 := fun e => h0 (by rw [e])
      rw [accAt_next V c t h0, PhiS_castSucc V c t, PhiS_pos V c _ _ hz]
      iintro ⟨⟨⟨HS0, Hoth⟩, Hg⟩, Ho, ⟨%d0, H0⟩, ⟨%d1, H1⟩⟩
      iapply (run0_inner c Set.univ (grid0.coords t) _ _ _ _ _ _ (fun h => h0 ((hcond0_0 t).mp h)) (fun h => h1 ((hcond0_1 t).mp h)) (iblk0 V c 0 t) _ _ _)
      isplitl [H0]; · iexact H0
      isplitl [H1]; · iexact H1
      isplitl [HS0]; · iexact HS0
      iintro ⟨H0, H1, HS0⟩
      isplitl [HS0 Hoth Hg]
      · isplitl [HS0 Hoth]
        · isplitl [HS0]; · iexact HS0
          iexact Hoth
        iexact Hg
      isplitl [Ho]; · iexact Ho
      isplitl [H0]; · iexact H0
      iexists _; iexact H1

/-- The region's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the plain one back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq]
  iintro ⟨⟨HS0, Hoth⟩, Hg⟩
  isplitl [HS0 Hoth]
  · isplitl [HS0]; · iexists _; iexact HS0
    iexact Hoth
  iexact Hg

end Cert.KernelIdeal.Frame

end
-- ==== Proof.LapBody.lean ====
/-
  The second region: the Laplacian tile kernel, one grid point per block of 256 rows of one graph.

  At a point the body reads three input blocks — a 1×256×2048 tile of the adjacency array, the 1×256×1 column of
  row scalings and the 1×1×2048 row of column scalings — and stores one 1×256×2048 tile: the identity's tile minus
  the scaled adjacency tile.  Nothing is kept from point to point, so what the output's buffer holds after the body
  is a function of the three input blocks and of the point (the identity's tile depends on which rows the point
  covers).  This module states that function, the body's triple, the proof data of the region at any entry contents
  `V`, and the body obligation at every point.
-/
import proofs.«171109_j249108103362_2_alg».proof.Proof.Gen.KernelIdeal.Launch
import proofs.«171109_j249108103362_2_alg».proof.Proof.Gen.KernelIdeal.Skeleton
import proofs.«171109_j249108103362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, whether the block was fetched there or the
    block index did not move since the point before (the row of column scalings moves once per graph). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each a whole buffer -/

abbrev rTile : Rect S1x256x2048 := Rect.unit (s := S1x256x2048) ![0, 0, 0] S1x256x2048.size inb_S1x256x2048_S1x256x2048_0_0_0
abbrev rCol : Rect S1x256x1 := Rect.unit (s := S1x256x1) ![0, 0, 0] S1x256x1.size inb_S1x256x1_S1x256x1_0_0_0
abbrev rRow : Rect S1x1x2048 := Rect.unit (s := S1x1x2048) ![0, 0, 0] S1x1x2048.size inb_S1x1x2048_S1x1x2048_0_0_0

/-- What the body leaves in the output's buffer at grid coordinates `i`, from the three input blocks: its one
    store, through the whole buffer. -/
def tile1 (i : grid1.Coords) (x0 : Vec F S1x256x2048 .f32) (x1 : Vec F S1x256x1 .f32) (x2 : Vec F S1x1x2048 .f32) : Vec F S1x256x2048 .f32 :=
  View.canon [⟨rTile, k1_pay1 i (View.ld x1 rCol) (View.ld x0 rTile) (View.ld x2 rRow)⟩]

/-- The store covers the buffer. -/
theorem cover1 (p0 : Vec F S1x256x2048 .f32) (y : S1x256x2048.Idx) :
    ∃ pc ∈ ([⟨rTile, p0⟩] : List (View.Piece (Elt F) S1x256x2048 .f32)), y ∈ pc.1.set :=
  ⟨_, List.mem_singleton_self _, View.mem_set_unit_zero (by funext a; fin_cases a <;> rfl) inb_S1x256x2048_S1x256x2048_0_0_0 y⟩

/-- So the buffer holds the stored value itself: the tile as one pure term of the three blocks. -/
theorem tile1_eq (i : grid1.Coords) (x0 : Vec F S1x256x2048 .f32) (x1 : Vec F S1x256x1 .f32) (x2 : Vec F S1x1x2048 .f32) :
    tile1 i x0 x1 x2 = k1_pay1 i x1 x0 x2 := by
  unfold tile1
  rw [View.canon_unit_zero (by funext a; fin_cases a <;> rfl)]
  rw [View.ld_unit_zero (S := S1x256x1) (by funext a; fin_cases a <;> rfl), View.ld_unit_zero (S := S1x256x2048) (by funext a; fin_cases a <;> rfl),
    View.ld_unit_zero (S := S1x1x2048) (by funext a; fin_cases a <;> rfl)]

/-! ## The body's triple -/

set_option maxHeartbeats 1000000 in
/-- On whole staging memrefs, the inputs' at contents `x0 x1 x2` and the output's at anything, the body runs to the
    continuation with the inputs' as they were and the output's at `tile1` of them. -/
theorem sound_kernel1 (c : Dev nD) (E : Set ℕ) (i : grid1.Coords)
    (arg2 : Memref sig .tc .vmem S1x256x2048 .f32) (harg2 : arg2.IsWhole) (arg3 : Memref sig .tc .vmem S1x256x1 .f32) (harg3 : arg3.IsWhole)
    (arg4 : Memref sig .tc .vmem S1x1x2048 .f32) (harg4 : arg4.IsWhole) (arg5 : Memref sig .tc .vmem S1x256x2048 .f32) (harg5 : arg5.IsWhole)
    (x0 : Vec F S1x256x2048 .f32) (x1 : Vec F S1x256x1 .f32) (x2 : Vec F S1x1x2048 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (tile1 i x0 x1 x2)) -∗ K ⟨⟩))
      ⊢ wp frame (wpE (defs₀ (F := F)) Variants.none c none) E (cc1__laplacian_kernel i arg2 harg2 arg3 harg3 arg4 harg4 arg5 harg5) K := by
  simp only [cc1__laplacian_kernel_eq_skeleton]; unfold cc1__laplacian_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ## The region's proof data -/

/-- The proof data of the region on core `c`: the arrays as the region finds them; after the body at point `t`
    each input's buffer at its block and the output's at `tile1` of the three blocks; the invariant the plain one
    (the scoped rest and the generator register, untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => tile1 (grid1.coords t) (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = tile1 (grid1.coords t) (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The region's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.Run.lean ====
/-
  The whole program as a chain of three items — the degree region, three host reshapes, the Laplacian region — and
  its run from any launch memory.

  The buffers' contents at the four boundaries are a fold from the launch memory: a region leaves its arrays at what
  its write-backs leave (the inputs as entered, the output's blocks laid over the entry contents) and every other
  buffer as entered; the host stretch applies its three reshapes.  Each region is entered from "every unscoped buffer
  at the boundary's contents, the generator register at some state, nothing owed" and left at the same at the next
  boundary, so the items chain.  The run's conclusion names every unscoped buffer's final contents; the argument
  array walks back through the fold to the launch memory, and the result array is the second region's output.
-/
import proofs.«171109_j249108103362_2_alg».proof.Proof.DegBody
import proofs.«171109_j249108103362_2_alg».proof.Proof.LapBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- The same read at the core's own references: what the first region's proof data take. -/
abbrev V0 : (c : Dev nD) → (b : Ref sig .tc) → Buf (Elt F) ((c : Thread nD τ).loc b) := fun c b => W0 m c b
/-- After the first region: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- After the three host reshapes: the second region's entry. -/
abbrev W2 : Dev nD → Valuation τ sig (Elt F) := fun c => StableHlo.after hostOps1 (W1 m c)
abbrev V2 : (c : Dev nD) → (b : Ref sig .tc) → Buf (Elt F) ((c : Thread nD τ).loc b) := fun c b => W2 m c b
/-- After the second region. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-- No reshape writes the argument array. -/
theorem W2_main_arg0 (c : Dev nD) : W2 m c (Proc.devRef .tc main_arg0) = W1 m c (Proc.devRef .tc main_arg0) :=
  StableHlo.after_of_forall_not_mem (b := Proc.devRef .tc main_arg0) _ _ (List.forall_iff_forall_mem.mp (by
    simp only [hostOps1, List.Forall, StableHlo.reshape_writes, Finset.mem_singleton]
    repeat' apply And.intro
    all_goals exact StableHlo.devRef_ne_of_ne (by decide)))

/-- The argument array ends as launched: both regions read it through an input window, no reshape writes it. -/
theorem W3_main_arg0 (c : Dev nD) : W3 m c (Proc.devRef .tc main_arg0) = m ((c : Thread nD τ).loc main_arg0) :=
  calc W3 m c (Proc.devRef .tc main_arg0)
    _ = W2 m c (Proc.devRef .tc main_arg0) := (W3_arr m c 0).trans (((dat1 (V2 m) c).arrAt_in 0 rfl _).trans (A_eq1 (V2 m) c 0))
    _ = W1 m c (Proc.devRef .tc main_arg0) := W2_main_arg0 m c
    _ = W0 m c (Proc.devRef .tc main_arg0) := (W1_arr m c 0).trans (((dat0 (V0 m) c).arrAt_in 0 rfl _).trans (A_eq0 (V0 m) c 0))
    _ = m ((c : Thread nD τ).loc main_arg0) := rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W3 m c) ∗ ∃ r, prngReg c r)

/-! ## The regions as items -/

set_option backward.isDefEq.respectTransparency.types false in
/-- Region 0 over the thread state: entered from every unscoped buffer at `W0`, left at `W1`. Its arrays
    are split out of the unscoped buffers and put back at the exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V0 m) c)
    unfold Pipeline.ΦA
    iintro ⟨Hp, -, Hr⟩
    isplitl [Hr]; · iexact Hr
    iexact Hp
  hout c := by
    rw [Pipeline.ownSems0_none]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays
    are split out of the unscoped buffers and put back at the exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as items, and the launch -/

abbrev segs : List (Pipeline.Seg (pcfgs (F := F)) adm (pdats m) () defs₀ 𝒱₀ L lv) :=
  [ .region (reg0 m),
    .host (hseg hostOps1 hostOps1_sub hostOps1_fresh' (W1 m)),
    .region (reg1 m) ]
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and in every final state the result array holds the second region's output array after its last
    write-back and the argument array is as launched. -/
theorem run : θ_run defs (onTc (τ := τ) (main (F := F))) ⟨m, fun _ => 0, ρ⟩ (fun r => ∀ c : Dev nD,
      r.2.mem ((c.tc : Thread nD τ).loc main_v4) = (dat1 (V2 m) c).arrAt 3 cfg1.N
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v4 (by decide))).trans (W3_arr m c 3),
       (h c _ (mem_uc main_arg0 (by decide))).trans (W3_main_arg0 m c)⟩)

/-- THE FRAME: the program runs and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.KernelIdeal.Frame

end
-- ==== Proof.Spec.lean ====
/-
  The normalized graph Laplacian as one function of the adjacency array, index by index, over the extended reals.

  For a batch `b` and a column `j` the degree is the column sum `colSum A b j = Σ_i A(b,i,j)`; a scaling
  `d(b,j)` is a function of that degree; and the result at `(b,i,j)` is
  `eye(i,j) - (d(b,i) · A(b,i,j)) · d(b,j)`.  Two scalings are named: the reciprocal square root taken in one
  step (`scaleK`) and the quotient `1 / sqrt` (`scaleR`).  On a non-negative degree the two agree; below zero
  they differ (the first is `⊥`, the second `1 / ⊥ = 0`), which is why the degree's sign is part of the domain.
-/
import Idealize.ShloMosaic.PureOps.Ideal
import Idealize.ShloMosaic.Lib.ValueIdx

noncomputable section

namespace Cert.Lap

open Idealize.ShloMosaic Idealize.ShloMosaic.ValueIdx

/-- The adjacency array's shape: 16 graphs of 2048 × 2048 weights. -/
abbrev SA : Shape := ⟨3, ![16, 2048, 2048]⟩

/-- The degree of column `j` of graph `b`: the sum of the column's entries over the rows. -/
def colSum (A : SA.Idx → EReal) (b : Fin 16) (j : Fin 2048) : EReal := ∑ i : Fin 2048, A (ix3 b i j)

/-- The identity matrix's entry. -/
def eye (i j : Fin 2048) : EReal := if i = j then 1 else 0

/-- The Laplacian's entry under a scaling `d`: `eye(i,j) - (d(b,i) · A(b,i,j)) · d(b,j)`. -/
def lap (d : Fin 16 → Fin 2048 → EReal) (A : SA.Idx → EReal) (b : Fin 16) (i j : Fin 2048) : EReal :=
  eye i j - (d b i * A (ix3 b i j)) * d b j

/-- The scaling as a reciprocal square root of the degree. -/
def scaleK (A : SA.Idx → EReal) (b : Fin 16) (j : Fin 2048) : EReal := Ideal.rsqrt (colSum A b j)

/-- The scaling as one over the square root of the degree. -/
def scaleR (A : SA.Idx → EReal) (b : Fin 16) (j : Fin 2048) : EReal := Ideal.div 1 (Ideal.sqrt (colSum A b j))

/-- The whole result array under a scaling. -/
def out (d : Fin 16 → Fin 2048 → EReal) (A : SA.Idx → EReal) : SA.Idx → EReal :=
  fun x => lap d A ⟨(x 0).val, (x 0).isLt⟩ ⟨(x 1).val, (x 1).isLt⟩ ⟨(x 2).val, (x 2).isLt⟩

theorem out_apply (d : Fin 16 → Fin 2048 → EReal) (A : SA.Idx → EReal) (b : Fin 16) (i j : Fin 2048) :
    out d A (ix3 b i j) = lap d A b i j := rfl

/-- The part of a sum over the 2048 rows that lies in the `k`-th block of 512 consecutive rows. -/
def rowBlock (f : Fin 2048 → EReal) (k : Fin 4) : EReal :=
  ∑ r : Fin 512, f ⟨512 * k.val + r.val, by have := k.isLt; have := r.isLt; omega⟩

end Cert.Lap

end
-- ==== Proof.PayloadAt.lean ====
/-
  The kernel bodies' stored values read at an index, over the extended reals.

  Each store of the two kernel functions writes one pure term of the values loaded before it.  Read at an
  index (0, r, j) of its block:
  * the reset of the accumulator is the zero;
  * the accumulation step is the accumulator plus the sum, over the 512 rows of the block, of the block's column;
  * the scaling is the reciprocal square root of the accumulated degree;
  * the Laplacian tile is the identity's entry (the tile's row r is the array's row 256 * (the tile's number) + r)
    minus the product (the row's scaling times the entry) times the column's scaling.
-/
import proofs.«171109_j249108103362_2_alg».proof.Proof.Gen.KernelIdeal.Skeleton
import proofs.«171109_j249108103362_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

variable [Cert.KernelIdeal.Facts]

/-- The reset value of the accumulator is the zero at every lane. -/
theorem zero_apply (j : Fin 2048) : k0_pay1 (F := Ideal) (ix3 0 0 j) = 0 := by
  unfold k0_pay1
  rw [shapeCast_self]
  exact Ideal.ofBits_zero_f32

/-- The scaling is the reciprocal square root, lane by lane. -/
theorem rsqrt_apply (v14 : Vec Ideal S1x1x2048 .f32) (j : Fin 2048) :
    k0_pay3 (F := Ideal) v14 (ix3 0 0 j) = Ideal.rsqrt (v14 (ix3 0 0 j)) := rfl

/-- The index of the block at row k above the reduced index (0, j). -/
theorem lift_eq (j : Fin 2048) (k : Fin 512) :
    (reduces_S1x512x2048_S1x2048).lift (ix2 (0 : Fin 1) j) k = ix3 (0 : Fin 1) k j := by
  funext d
  apply Fin.ext
  match d with
  | ⟨0, _⟩ => rfl
  | ⟨1, _⟩ => rfl
  | ⟨2, _⟩ => rfl

/-- The accumulation step: the accumulator plus the block's column sum. -/
theorem acc_apply (v3 : Vec Ideal S1x1x2048 .f32) (v4 : Vec Ideal S1x512x2048 .f32) (j : Fin 2048) :
    k0_pay2 (F := Ideal) v3 v4 (ix3 0 0 j) = v3 (ix3 0 0 j) + ∑ r : Fin 512, v4 (ix3 0 r j) := by
  unfold k0_pay2
  rw [shapeCast_self]
  refine (addf_apply _ _ _).trans ?_
  refine congrArg (fun x => v3 (ix3 0 0 j) + x) ?_
  refine (shapeCast_ab_1ab_apply _ shapeCasts_S1x2048_S1x1x2048 0 0 j).trans ?_
  refine (Ideal.multiReduction_add_single v4 0x00000000#32 reduces_S1x512x2048_S1x2048 (.inl rfl) rfl (ix2 0 j)).trans ?_
  exact Finset.sum_congr rfl fun k _ => congrArg v4 (lift_eq j k)

/-- The 32-bit word arithmetic of a tile's row number never wraps: for a tile number below 8, a row below 256 and a
    column below 2048, the words of (row + tile * 256) and of the column are equal exactly when the numbers are. -/
theorem word_eq (n r j : Nat) (hn : n < 8) (hr : r < 256) (hj : j < 2048) :
    (BitVec.ofNat 32 r + BitVec.ofNat 32 n * 256#32 = BitVec.ofNat 32 j) ↔ n * 256 + r = j := by
  rw [← BitVec.toNat_inj]
  simp only [BitVec.toNat_add, BitVec.toNat_mul, BitVec.toNat_ofNat]
  omega

/-- A one-bit truth value widened to 32 bits and read as a signed integer is 1 or 0. -/
theorem toInt_ofBool (b : Bool) : ((BitVec.ofBool b).setWidth 32).toInt = if b then 1 else 0 := by
  cases b <;> rfl

/-- The identity's entry as the kernel computes it. -/
theorem eye_apply (i : grid1.Coords) (r : Fin 256) (j : Fin 2048) :
    (sitofp (F := Ideal) .f32 (extui 32 (cmpi .eq (addi (iota .tc S1x256x2048 32 [1] iota_S1x256x2048_d1_w32)
        (broadcast S1x256x2048 (Scalar.muli (BitVec.ofNat 32 (i 1).val) 256#32)))
        (iota .tc S1x256x2048 32 [2] iota_S1x256x2048_d2_w32)) natLt_1_32) : FVec Ideal S1x256x2048 .f32) (ix3 0 r j)
      = if (i 1).val * 256 + r.val = j.val then (1 : EReal) else 0 := by
  show (((((BitVec.ofBool (iota .tc S1x256x2048 32 [1] iota_S1x256x2048_d1_w32 (ix3 0 r j) + BitVec.ofNat 32 (i 1).val * 256#32
      == iota .tc S1x256x2048 32 [2] iota_S1x256x2048_d2_w32 (ix3 0 r j))).setWidth 32).toInt : ℝ) : EReal)) = _
  rw [iota_single_apply, iota_single_apply, toInt_ofBool]
  have hw := word_eq (i 1).val r.val j.val (i 1).isLt r.isLt j.isLt
  by_cases h : (i 1).val * 256 + r.val = j.val
  · have hb : (BitVec.ofNat 32 r.val + BitVec.ofNat 32 (i 1).val * 256#32 == BitVec.ofNat 32 j.val) = true :=
      beq_iff_eq.mpr (hw.mpr h)
    rw [if_pos h]
    show ((((if (BitVec.ofNat 32 r.val + BitVec.ofNat 32 (i 1).val * 256#32 == BitVec.ofNat 32 j.val) = true
      then (1 : ℤ) else 0 : ℤ) : ℝ) : EReal)) = 1
    rw [if_pos hb, Int.cast_one, EReal.coe_one]
  · have hb : ¬ (BitVec.ofNat 32 r.val + BitVec.ofNat 32 (i 1).val * 256#32 == BitVec.ofNat 32 j.val) = true :=
      fun e => h (hw.mp (beq_iff_eq.mp e))
    rw [if_neg h]
    show ((((if (BitVec.ofNat 32 r.val + BitVec.ofNat 32 (i 1).val * 256#32 == BitVec.ofNat 32 j.val) = true
      then (1 : ℤ) else 0 : ℤ) : ℝ) : EReal)) = 0
    rw [if_neg hb, Int.cast_zero, EReal.coe_zero]

/-- The Laplacian tile at row r, column j: the identity's entry minus the scaled entry. -/
theorem lap_apply (i : grid1.Coords) (v8 : Vec Ideal S1x256x1 .f32) (v10 : Vec Ideal S1x256x2048 .f32)
    (v13 : Vec Ideal S1x1x2048 .f32) (r : Fin 256) (j : Fin 2048) :
    k1_pay1 (F := Ideal) i v8 v10 v13 (ix3 0 r j)
      = (if (i 1).val * 256 + r.val = j.val then (1 : EReal) else 0)
        - (v8 (ix3 0 r 0) * v10 (ix3 0 r j)) * v13 (ix3 0 0 j) := by
  unfold k1_pay1
  refine (subf_apply _ _ _).trans ?_
  refine congrArg₂ (· - ·) (eye_apply i r j) ?_
  refine (mulf_apply _ _ _).trans ?_
  refine congrArg₂ (· * ·) ?_ ?_
  · refine (mulf_apply _ _ _).trans ?_
    refine congrArg (· * v10 (ix3 0 r j)) ?_
    refine (broadcastTo_apply _ broadcasts_S1x256x1_S1x256x2048 (ix3 0 r j) (ix3 0 r 0) fun a => ?_).trans ?_
    · match a with
      | ⟨0, _⟩ => rfl
      | ⟨1, _⟩ => rfl
      | ⟨2, _⟩ => rfl
    · exact congrFun (shapeCast_self v8 shapeCasts_S1x256x1_S1x256x1) _
  · refine (broadcastTo_apply _ broadcasts_S1x1x2048_S1x256x2048 (ix3 0 r j) (ix3 0 0 j) fun a => ?_).trans ?_
    · match a with
      | ⟨0, _⟩ => rfl
      | ⟨1, _⟩ => rfl
      | ⟨2, _⟩ => rfl
    · exact congrFun (shapeCast_self v13 shapeCasts_S1x1x2048_S1x1x2048) _

end Cert.KernelIdeal.Pay

end
-- ==== Proof.LibGemmSplit.lean ====
/-
  Sums cut into equal blocks, and a sum over the four elements of `Fin 4` taken in any order: general facts over an
  additive commutative monoid (the extended reals are one: no finiteness is asked anywhere), and two regroupings of a
  product in a commutative monoid. Nothing here mentions a program.
-/
import Mathlib.Algebra.BigOperators.Fin
import Mathlib.Algebra.BigOperators.Group.Finset.Basic
import Mathlib.Data.Fintype.BigOperators
import Mathlib.Data.EReal.Inv
import Mathlib.Logic.Equiv.Fin.Basic

open scoped BigOperators

namespace Cert.LibGemmSplit

/-- Position `j` of block `c`, of `n` blocks of length `b` laid end to end, is below the total length. -/
theorem blk_lt {N n b : ℕ} (h : n * b = N) (c : Fin n) (j : Fin b) : b * c.val + j.val < N := by
  have hc : c.val + 1 ≤ n := c.isLt
  calc b * c.val + j.val < b * c.val + b := Nat.add_lt_add_left j.isLt _
    _ = b * (c.val + 1) := (Nat.mul_succ _ _).symm
    _ ≤ b * n := Nat.mul_le_mul_left _ hc
    _ = N := by rw [Nat.mul_comm, h]

/-- A sum over `Fin N`, `N = n * b`, is the sum over the `n` consecutive blocks of length `b` of each block's sum:
    `∑ k, f k = ∑ c, ∑ j, f (b * c + j)`. Only commutativity and associativity of `+` are used. -/
theorem sum_blocks {M : Type*} [AddCommMonoid M] {N n b : ℕ} (h : n * b = N) (f : Fin N → M) :
    ∑ k : Fin N, f k = ∑ c : Fin n, ∑ j : Fin b, f ⟨b * c.val + j.val, blk_lt h c j⟩ := by
  subst h
  rw [← Equiv.sum_comp finProdFinEquiv f, Fintype.sum_prod_type]
  refine Finset.sum_congr rfl fun c _ => Finset.sum_congr rfl fun j _ => congrArg f (Fin.ext ?_)
  show j.val + b * c.val = b * c.val + j.val
  exact Nat.add_comm _ _

/-- The case of this file's name: 1024 terms as 4 blocks of 256. -/
theorem sum_1024_eq_4x256 {M : Type*} [AddCommMonoid M] (f : Fin 1024 → M) :
    ∑ k : Fin 1024, f k = ∑ c : Fin 4, ∑ j : Fin 256, f ⟨256 * c.val + j.val, blk_lt (by norm_num) c j⟩ :=
  sum_blocks (n := 4) (b := 256) (by norm_num) f

/-- Four pairwise distinct elements of `Fin 4` are all of them. -/
theorem univ_eq_of_distinct : ∀ a b c d : Fin 4, a ≠ b → a ≠ c → a ≠ d → b ≠ c → b ≠ d → c ≠ d →
    (Finset.univ : Finset (Fin 4)) = {a, b, c, d} := by decide

/-- The values of `g` at four pairwise distinct elements of `Fin 4`, added in that order (grouped from the right),
    are the sum of `g` over `Fin 4`. -/
theorem sum_four_distinct {M : Type*} [AddCommMonoid M] (g : Fin 4 → M) (a b c d : Fin 4)
    (hab : a ≠ b) (hac : a ≠ c) (had : a ≠ d) (hbc : b ≠ c) (hbd : b ≠ d) (hcd : c ≠ d) :
    g a + (g b + (g c + g d)) = ∑ i : Fin 4, g i := by
  rw [univ_eq_of_distinct a b c d hab hac had hbc hbd hcd,
    Finset.sum_insert (by simp [hab, hac, had]), Finset.sum_insert (by simp [hbc, hbd]),
    Finset.sum_insert (by simp [hcd]), Finset.sum_singleton]

/-- The same for the four values of a bijection of `Fin 4`. -/
theorem sum_four_perm {M : Type*} [AddCommMonoid M] (g : Fin 4 → M) (σ : Fin 4 ≃ Fin 4) :
    g (σ 0) + (g (σ 1) + (g (σ 2) + g (σ 3))) = ∑ i : Fin 4, g i := by
  rw [← Equiv.sum_comp σ g, Fin.sum_univ_four, add_assoc, add_assoc]

/-- In a commutative monoid (the extended reals under `*`): `((k * y) * y) * y = k * ((y * y) * y)`. -/
theorem mul_cube_assoc {M : Type*} [CommMonoid M] (k y : M) : ((k * y) * y) * y = k * ((y * y) * y) := by
  rw [mul_assoc k y y, mul_assoc k (y * y) y]

/-- The same on the extended reals, where it is used. -/
theorem ereal_mul_cube_assoc (k y : EReal) : ((k * y) * y) * y = k * ((y * y) * y) := mul_cube_assoc k y

end Cert.LibGemmSplit
-- ==== Proof.LibRowBlocks.lean ====
/-
  A sum over the 2048 rows taken as four consecutive blocks of 512 rows, added one after another from zero.
  Over the extended reals addition is commutative and associative with zero as its unit, so nothing about
  finiteness is needed.
-/
import proofs.«171109_j249108103362_2_alg».proof.Proof.Spec
import proofs.«171109_j249108103362_2_alg».proof.Proof.LibGemmSplit

noncomputable section

namespace Cert.Lap

/-- Adding the four row blocks in order, from zero, gives the sum over all 2048 rows. -/
theorem rowBlocks_sum (f : Fin 2048 → EReal) :
    (((0 + rowBlock f 0) + rowBlock f 1) + rowBlock f 2) + rowBlock f 3 = ∑ i : Fin 2048, f i := by
  rw [Cert.LibGemmSplit.sum_blocks (n := 4) (b := 512) (by norm_num) f, Fin.sum_univ_four, zero_add]
  rfl

end Cert.Lap

end
-- ==== Proof.DegValue.lean ====
/-
  What the first region leaves in its output array, at the extended reals: the reciprocal square root of every
  column's degree.

  Point `t` of the 16 × 4 grid is block `t % 4` (512 rows) of graph `t / 4`.  Along a graph's four points the
  accumulator holds, column by column, zero plus the first block's column sums, then that plus the second block's, and
  so on: after the graph's last block it holds the four blocks' sums added in order, which is the whole column's sum
  (a finite sum split into four consecutive blocks; no finiteness is needed).  Only a graph's last point writes the
  output's block back, and the block is row `t / 4` of the 16 × 1 × 2048 array, so the sixteen written blocks cover it.
-/
import proofs.«171109_j249108103362_2_alg».proof.Proof.DegBody
import proofs.«171109_j249108103362_2_alg».proof.Proof.PayloadAt
import proofs.«171109_j249108103362_2_alg».proof.Proof.LibRowBlocks
import proofs.«171109_j249108103362_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Frame Cert.Lap
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The input window's block at point `t`, as a 1 × 512 × 2048 array of extended reals. -/
abbrev blk0 (c : Dev nD) (t : Fin cfg0.N) : S1x512x2048.Idx → EReal := iblk0 V c 0 t

/-- The printed index maps over the grid: the input's block at point `t` is block `t % 4` of graph `t / 4`, the
    output's block is row `t / 4`. -/
theorem deg_idx : ∀ t : Fin cfg0.N, win0_0.index t (0 : Fin 3) = t.val / 4 ∧ win0_0.index t (1 : Fin 3) = t.val % 4
    ∧ win0_0.index t (2 : Fin 3) = 0 ∧ win0_1.index t (0 : Fin 3) = t.val / 4 ∧ win0_1.index t (1 : Fin 3) = 0
    ∧ win0_1.index t (2 : Fin 3) = 0 :=
  (by decide +kernel : ∀ t : Fin grid0.N, _)

/-- The input block at the `k`-th point of graph `b`, read at row `r` and column `j`, is the adjacency array at row
    `512 k + r` of graph `b`. -/
theorem degBlock_apply (c : Dev nD) (b : Fin 16) (k : Fin 4) (t : Fin cfg0.N) (ht : t.val = 4 * b.val + k.val)
    (r : Fin 512) (j : Fin 2048) :
    blk0 V c t (ix3 0 r j)
      = (V c main_arg0 : S16x2048x2048.Idx → EReal) (ix3 b ⟨512 * k.val + r.val, by have := k.isLt; have := r.isLt; omega⟩ j) := by
  obtain ⟨e0, e1, e2, -⟩ := deg_idx t
  have hk := k.isLt
  unfold blk0 iblk0
  rw [View.read_apply]
  show V c main_arg0 _ = V c main_arg0 _
  refine congrArg _ (funext fun a => Fin.ext ?_)
  match a with
  | ⟨0, _⟩ => show win0_0.index t (0 : Fin 3) * 1 + 1 * 0 = b.val; omega
  | ⟨1, _⟩ => show win0_0.index t (1 : Fin 3) * 512 + 1 * r.val = 512 * k.val + r.val; omega
  | ⟨2, _⟩ => show win0_0.index t (2 : Fin 3) * 2048 + 1 * j.val = j.val; omega

/-- So the block's column sum is the `k`-th block of the whole column's sum. -/
theorem blockSum_at (c : Dev nD) (b : Fin 16) (k : Fin 4) (t : Fin cfg0.N) (ht : t.val = 4 * b.val + k.val) (j : Fin 2048) :
    ∑ r : Fin 512, blk0 V c t (ix3 0 r j)
      = rowBlock (fun i => (V c main_arg0 : S16x2048x2048.Idx → EReal) (ix3 b i j)) k := by
  unfold rowBlock
  exact Finset.sum_congr rfl fun r _ => degBlock_apply V c b k t ht r j

/-- The accumulator one point on, off a graph's first block. -/
theorem accAt_succ (c : Dev nD) (n : ℕ) (hn : n + 1 < cfg0.N) (h0 : ¬(n + 1) % 4 = 0) :
    accAt V c (n + 1) hn = k0_pay2 (accAt V c n (Nat.lt_of_succ_lt hn)) (iblk0 V c 0 ⟨n + 1, hn⟩) := if_neg h0

/-- After a graph's last block the accumulator holds, column by column, the column's degree. -/
theorem acc_last (c : Dev nD) (b : Fin 16) (h : 4 * b.val + 3 < cfg0.N) (j : Fin 2048) :
    (accAt V c (4 * b.val + 3) h : Vec Ideal S1x1x2048 .f32) (ix3 0 0 j) = colSum (V c main_arg0) b j := by
  have hb := b.isLt
  have hN : cfg0.N = 64 := N_0
  have a0 : (accAt V c (4 * b.val) (by omega) : Vec Ideal S1x1x2048 .f32) (ix3 0 0 j)
      = 0 + ∑ r : Fin 512, blk0 V c ⟨4 * b.val, by omega⟩ (ix3 0 r j) := by
    rw [accAt_first V c ⟨4 * b.val, by omega⟩ (by show (4 * b.val) % 4 = 0; omega), Pay.acc_apply, Pay.zero_apply]
  have a1 : (accAt V c (4 * b.val + 1) (by omega) : Vec Ideal S1x1x2048 .f32) (ix3 0 0 j)
      = (accAt V c (4 * b.val) (by omega) : Vec Ideal S1x1x2048 .f32) (ix3 0 0 j)
        + ∑ r : Fin 512, blk0 V c ⟨4 * b.val + 1, by omega⟩ (ix3 0 r j) := by
    rw [accAt_succ V c (4 * b.val) (by omega) (by omega), Pay.acc_apply]
  have a2 : (accAt V c (4 * b.val + 2) (by omega) : Vec Ideal S1x1x2048 .f32) (ix3 0 0 j)
      = (accAt V c (4 * b.val + 1) (by omega) : Vec Ideal S1x1x2048 .f32) (ix3 0 0 j)
        + ∑ r : Fin 512, blk0 V c ⟨4 * b.val + 2, by omega⟩ (ix3 0 r j) := by
    rw [accAt_succ V c (4 * b.val + 1) (by omega) (by omega), Pay.acc_apply]
  have a3 : (accAt V c (4 * b.val + 3) h : Vec Ideal S1x1x2048 .f32) (ix3 0 0 j)
      = (accAt V c (4 * b.val + 2) (by omega) : Vec Ideal S1x1x2048 .f32) (ix3 0 0 j)
        + ∑ r : Fin 512, blk0 V c ⟨4 * b.val + 3, h⟩ (ix3 0 r j) := by
    rw [accAt_succ V c (4 * b.val + 2) h (by omega), Pay.acc_apply]
  rw [a3, a2, a1, a0,
    blockSum_at V c b 0 ⟨4 * b.val, by omega⟩ (by show 4 * b.val = 4 * b.val + 0; omega) j,
    blockSum_at V c b 1 ⟨4 * b.val + 1, by omega⟩ rfl j,
    blockSum_at V c b 2 ⟨4 * b.val + 2, by omega⟩ rfl j,
    blockSum_at V c b 3 ⟨4 * b.val + 3, h⟩ rfl j]
  exact rowBlocks_sum _

/-- The same at any position that is a graph's last block. -/
theorem acc_last' (c : Dev nD) (n : ℕ) (hn : n < cfg0.N) (b : Fin 16) (hb : n = 4 * b.val + 3) (j : Fin 2048) :
    (accAt V c n hn : Vec Ideal S1x1x2048 .f32) (ix3 0 0 j) = colSum (V c main_arg0) b j := by
  subst hb; exact acc_last V c b hn j

/-- What the output array ends holding: at `(b, 0, j)` the reciprocal square root of column `j`'s degree in graph `b`. -/
def degOut (A : S16x2048x2048.Idx → EReal) : S16x1x2048.Idx → EReal :=
  fun x => scaleK A ⟨(x 0).val, (x 0).isLt⟩ ⟨(x 2).val, (x 2).isLt⟩

theorem degOut_apply (A : S16x2048x2048.Idx → EReal) (b : Fin 16) (j : Fin 2048) : degOut A (ix3 b 0 j) = scaleK A b j := rfl

/-- What a graph's last point writes back is its block of `degOut`. -/
theorem deg_flushed (c : Dev nD) (t : Fin cfg0.N) (hf : (cfg0.win 1).flush t = true) :
    (dat0 V c).flushed 1 t = ((cfg0.win 1).blk t).view.read (Elt Ideal) (degOut (V c main_arg0)) := by
  have h3 : t.val % 4 = 3 := (flush0_1 t).mp hf
  have hN : t.val < 64 := lt_of_lt_of_eq t.isLt (show cfg0.N = 64 from N_0)
  obtain ⟨-, -, -, e3, e4, e5⟩ := deg_idx t
  show (cfg0.win 1).cut (grid0.coords t) ((dat0 V c).after 1 t) = _
  rw [after0_1]
  refine funext fun (y : S1x1x2048.Idx) => ?_
  obtain ⟨y0, y1, j, rfl⟩ : ∃ (y0 : Fin 1) (y1 : Fin 1) (j : Fin 2048), y = ix3 y0 y1 j := ⟨y 0, y 1, y 2, eq_ix3 y⟩
  obtain rfl : y0 = 0 := Subsingleton.elim _ _
  obtain rfl : y1 = 0 := Subsingleton.elim _ _
  rw [View.read_apply]
  have hemb : ((cfg0.win 1).blk t).view.emb (ix3 0 0 j) = (ix3 (⟨t.val / 4, by omega⟩ : Fin 16) (0 : Fin 1) j : S16x1x2048.Idx) := by
    funext a; apply Fin.ext
    match a with
    | ⟨0, _⟩ => show win0_1.index t (0 : Fin 3) * 1 + 1 * 0 = t.val / 4; omega
    | ⟨1, _⟩ => show win0_1.index t (1 : Fin 3) * 1 + 1 * 0 = 0; omega
    | ⟨2, _⟩ => show win0_1.index t (2 : Fin 3) * 2048 + 1 * j.val = j.val; omega
  rw [hemb, degOut_apply]
  show k0_pay3 (accAt V c t.val t.isLt) (ix3 0 0 j) = _
  rw [Pay.rsqrt_apply, acc_last' V c t.val t.isLt ⟨t.val / 4, by omega⟩ (by show t.val = 4 * (t.val / 4) + 3; omega) j]
  rfl

/-- An index of the output array is in point `t`'s block iff each coordinate is in the block's range on its axis. -/
theorem deg_mem_blk (t : Fin cfg0.N) (x : S16x1x2048.Idx) :
    x ∈ ((cfg0.win 1).blk t).view.set ↔ ∀ a : Fin 3, win0_1.index t a * S1x1x2048.size a ≤ (x a).val ∧ (x a).val < win0_1.index t a * S1x1x2048.size a + S1x1x2048.size a := by
  show x ∈ ((View.whole main_v0).slice (win0_1.rect t)).set ↔ _
  rw [View.set_slice_whole, Rect.mem_set_unit]
  exact Iff.rfl

/-- THE FIRST REGION'S OUTPUT ARRAY after its run, at any entry contents. -/
theorem deg_final (c : Dev nD) : (dat0 V c).arrAt 1 cfg0.N = degOut (V c main_arg0) :=
  (dat0 V c).arrAt_eq_of_cover 1 (degOut (V c main_arg0)) (fun t hf => deg_flushed V c t hf) fun x => by
    have hx0 : (x 0).val < 16 := (x 0).isLt
    have hx1 : (x 1).val < 1 := (x 1).isLt
    have hx2 : (x 2).val < 2048 := (x 2).isLt
    have hN : cfg0.N = 64 := N_0
    refine ⟨⟨4 * (x 0).val + 3, by omega⟩, (flush0_1 _).mpr (by show (4 * (x 0).val + 3) % 4 = 3; omega), ?_⟩
    obtain ⟨-, -, -, e3, e4, e5⟩ := deg_idx ⟨4 * (x 0).val + 3, by omega⟩
    rw [deg_mem_blk]
    intro a
    match a with
    | ⟨0, _⟩ => show win0_1.index _ (0 : Fin 3) * 1 ≤ (x 0).val ∧ (x 0).val < win0_1.index _ (0 : Fin 3) * 1 + 1; rw [e3]; show (4 * (x 0).val + 3) / 4 * 1 ≤ (x 0).val ∧ (x 0).val < (4 * (x 0).val + 3) / 4 * 1 + 1; omega
    | ⟨1, _⟩ => show win0_1.index _ (1 : Fin 3) * 1 ≤ (x 1).val ∧ (x 1).val < win0_1.index _ (1 : Fin 3) * 1 + 1; rw [e4]; omega
    | ⟨2, _⟩ => show win0_1.index _ (2 : Fin 3) * 2048 ≤ (x 2).val ∧ (x 2).val < win0_1.index _ (2 : Fin 3) * 2048 + 2048; rw [e5]; omega

end Cert.KernelIdeal.Val

end
-- ==== Proof.LapValue.lean ====
/-
  What the Laplacian region leaves in its output array, as one function of the three arrays it reads.

  The region's grid has 16 × 8 points; point `t` works on graph `t / 8` and on the block of 256 consecutive rows
  `256 (t mod 8) … 256 (t mod 8) + 255`.  There it reads a 1×256×2048 block of the adjacency array, the matching 1×256×1
  block of row scalings and the 1×1×2048 row of column scalings of the graph, and writes back a 1×256×2048 block of the
  output.  Read at block index (0, r, j) the written value is the identity's entry at (256 (t mod 8) + r, j) minus the
  product (row scaling · entry) · column scaling.  Each block read is the array at the block's offset plus the block index;
  the written blocks tile the output (index x lies in the block of point `8 (x 0) + (x 1) / 256`); so the output ends as the
  function `G`: `eye(i,j) - (R(b,i,0) · A(b,i,j)) · C(b,0,j)`.
-/
import proofs.«171109_j249108103362_2_alg».proof.Proof.LapBody
import proofs.«171109_j249108103362_2_alg».proof.Proof.PayloadAt
import proofs.«171109_j249108103362_2_alg».proof.Proof.Spec
import Idealize.ShloMosaic.Lib.Pipeline.Value
import Idealize.ShloMosaic.Lib.ValueIdx
import Idealize.ShloMosaic.Lib.Tactic

set_option maxRecDepth 16384

noncomputable section

namespace Cert.KernelIdeal.Val

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The block index of each window at each of the 128 grid points, and the points' second coordinate: decided once over the
    grid. -/
theorem idx1_0 : ∀ t : Fin grid1.N, win1_0.index t 0 = t.val / 8 ∧ win1_0.index t 1 = t.val % 8 ∧ win1_0.index t 2 = 0 := by
  decide +kernel
theorem idx1_1 : ∀ t : Fin grid1.N, win1_1.index t 0 = t.val / 8 ∧ win1_1.index t 1 = t.val % 8 ∧ win1_1.index t 2 = 0 := by
  decide +kernel
theorem idx1_2 : ∀ t : Fin grid1.N, win1_2.index t 0 = t.val / 8 ∧ win1_2.index t 1 = 0 ∧ win1_2.index t 2 = 0 := by
  decide +kernel
theorem idx1_3 : ∀ t : Fin grid1.N, win1_3.index t 0 = t.val / 8 ∧ win1_3.index t 1 = t.val % 8 ∧ win1_3.index t 2 = 0 := by
  decide +kernel
theorem coord1 : ∀ t : Fin grid1.N, (grid1.coords t 1).val = t.val % 8 := by
  decide +kernel

/-- The adjacency array, the column of row scalings and the row of column scalings as the region finds them. -/
abbrev arrA (c : Dev nD) : S16x2048x2048.Idx → EReal := V c main_arg0
abbrev arrR (c : Dev nD) : S16x2048x1.Idx → EReal := V c main_v2
abbrev arrC (c : Dev nD) : S16x1x2048.Idx → EReal := V c main_v3

/-- The array the region leaves in the output, index by index. -/
def G (c : Dev nD) : Buf (Elt Ideal) ((cfg1.win 3).arr.view.loc (c.tc : Thread nD τ)) :=
  fun x : S16x2048x2048.Idx =>
    Cert.Lap.eye ⟨(x 1).val, (x 1).isLt⟩ ⟨(x 2).val, (x 2).isLt⟩
      - (arrR V c (ix3 ⟨(x 0).val, (x 0).isLt⟩ ⟨(x 1).val, (x 1).isLt⟩ 0) * arrA V c x)
        * arrC V c (ix3 ⟨(x 0).val, (x 0).isLt⟩ 0 ⟨(x 2).val, (x 2).isLt⟩)

/-- The adjacency block at point `t`: rows `256 (t mod 8) …` of graph `t / 8`. -/
theorem iblk0_apply (c : Dev nD) (t : Fin cfg1.N) (y : S1x256x2048.Idx) (k : S16x2048x2048.Idx)
    (hk0 : (k 0).val = t.val / 8) (hk1 : (k 1).val = (t.val % 8) * 256 + (y 1).val) (hk2 : (k 2).val = (y 2).val) :
    (iblk1 V c 0 t : Vec Ideal S1x256x2048 .f32) y = arrA V c k := by
  obtain ⟨h0, h1, h2⟩ := idx1_0 t
  have hy0 : (y 0).val < 1 := (y 0).isLt
  unfold iblk1
  rw [View.read_apply]
  show V c main_arg0 _ = V c main_arg0 _
  congr 1
  funext a
  apply Fin.ext
  match a with
  | ⟨0, _⟩ => show win1_0.index t 0 * 1 + 1 * (y 0).val = (k 0).val; rw [h0, hk0]; omega
  | ⟨1, _⟩ => show win1_0.index t 1 * 256 + 1 * (y 1).val = (k 1).val; rw [h1, hk1]; omega
  | ⟨2, _⟩ => show win1_0.index t 2 * 2048 + 1 * (y 2).val = (k 2).val; rw [h2, hk2]; omega

/-- The block of row scalings at point `t`. -/
theorem iblk1_apply (c : Dev nD) (t : Fin cfg1.N) (y : S1x256x1.Idx) (k : S16x2048x1.Idx)
    (hk0 : (k 0).val = t.val / 8) (hk1 : (k 1).val = (t.val % 8) * 256 + (y 1).val) :
    (iblk1 V c 1 t : Vec Ideal S1x256x1 .f32) y = arrR V c k := by
  obtain ⟨h0, h1, h2⟩ := idx1_1 t
  have hy0 : (y 0).val < 1 := (y 0).isLt
  have hy2 : (y 2).val < 1 := (y 2).isLt
  have hk2 : (k 2).val < 1 := (k 2).isLt
  unfold iblk1
  rw [View.read_apply]
  show V c main_v2 _ = V c main_v2 _
  congr 1
  funext a
  apply Fin.ext
  match a with
  | ⟨0, _⟩ => show win1_1.index t 0 * 1 + 1 * (y 0).val = (k 0).val; rw [h0, hk0]; omega
  | ⟨1, _⟩ => show win1_1.index t 1 * 256 + 1 * (y 1).val = (k 1).val; rw [h1, hk1]; omega
  | ⟨2, _⟩ => show win1_1.index t 2 * 1 + 1 * (y 2).val = (k 2).val; rw [h2]; omega

/-- The block of column scalings at point `t`: the whole row of graph `t / 8`. -/
theorem iblk2_apply (c : Dev nD) (t : Fin cfg1.N) (y : S1x1x2048.Idx) (k : S16x1x2048.Idx)
    (hk0 : (k 0).val = t.val / 8) (hk2 : (k 2).val = (y 2).val) :
    (iblk1 V c 2 t : Vec Ideal S1x1x2048 .f32) y = arrC V c k := by
  obtain ⟨h0, h1, h2⟩ := idx1_2 t
  have hy0 : (y 0).val < 1 := (y 0).isLt
  have hy1 : (y 1).val < 1 := (y 1).isLt
  have hk1 : (k 1).val < 1 := (k 1).isLt
  unfold iblk1
  rw [View.read_apply]
  show V c main_v3 _ = V c main_v3 _
  congr 1
  funext a
  apply Fin.ext
  match a with
  | ⟨0, _⟩ => show win1_2.index t 0 * 1 + 1 * (y 0).val = (k 0).val; rw [h0, hk0]; omega
  | ⟨1, _⟩ => show win1_2.index t 1 * 1 + 1 * (y 1).val = (k 1).val; rw [h1]; omega
  | ⟨2, _⟩ => show win1_2.index t 2 * 2048 + 1 * (y 2).val = (k 2).val; rw [h2, hk2]; omega

/-- `G` at graph `b`, row `i`, column `j`. -/
theorem G_apply (c : Dev nD) (b : Fin 16) (i j : Fin 2048) :
    G V c (ix3 b i j) = Cert.Lap.eye i j - (arrR V c (ix3 b i 0) * arrA V c (ix3 b i j)) * arrC V c (ix3 b 0 j) := rfl

/-- The block written back at any point `t` is the block of `G` at `t`: the stored tile at (0, r, j) is the identity's entry
    minus the scaled adjacency entry, the three factors being the arrays at graph `t / 8`, row `256 (t mod 8) + r`, column `j`. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3, tile1_eq]
  funext y
  obtain ⟨a0, r, j, rfl⟩ : ∃ (a0 : Fin 1) (r : Fin 256) (j : Fin 2048), y = ix3 a0 r j := ⟨y 0, y 1, y 2, eq_ix3 y⟩
  obtain rfl : a0 = 0 := Subsingleton.elim _ _
  obtain ⟨h0, h1, h2⟩ := idx1_3 t
  have hN : t.val < 128 := Nat.lt_of_lt_of_eq t.isLt N_1
  have hb : t.val / 8 < 16 := by omega
  have hr : (t.val % 8) * 256 + r.val < 2048 := by have := r.isLt; omega
  have hemb : ((cfg1.win 3).blk t).view.emb (ix3 0 r j)
      = (ix3 ⟨t.val / 8, hb⟩ ⟨(t.val % 8) * 256 + r.val, hr⟩ j : S16x2048x2048.Idx) := by
    funext a
    apply Fin.ext
    match a with
    | ⟨0, _⟩ => show win1_3.index t 0 * 1 + 1 * 0 = t.val / 8; rw [h0]; omega
    | ⟨1, _⟩ => show win1_3.index t 1 * 256 + 1 * r.val = (t.val % 8) * 256 + r.val; rw [h1]; omega
    | ⟨2, _⟩ => show win1_3.index t 2 * 2048 + 1 * j.val = j.val; rw [h2]; omega
  have heye : (if (grid1.coords t 1).val * 256 + r.val = j.val then (1 : EReal) else 0)
      = Cert.Lap.eye ⟨(t.val % 8) * 256 + r.val, hr⟩ j := by
    unfold Cert.Lap.eye
    rw [coord1 t]
    exact if_congr ⟨fun h => Fin.ext h, fun h => congrArg Fin.val h⟩ rfl rfl
  rw [View.read_apply, hemb]
  show k1_pay1 (F := Ideal) (grid1.coords t) (iblk1 V c 1 t) (iblk1 V c 0 t) (iblk1 V c 2 t) (ix3 0 r j)
    = G V c (ix3 ⟨t.val / 8, hb⟩ ⟨(t.val % 8) * 256 + r.val, hr⟩ j)
  refine (Cert.KernelIdeal.Pay.lap_apply _ _ _ _ r j).trans ?_
  rw [heye,
    iblk1_apply V c t (ix3 0 r 0) (ix3 ⟨t.val / 8, hb⟩ ⟨(t.val % 8) * 256 + r.val, hr⟩ 0) rfl rfl,
    iblk0_apply V c t (ix3 0 r j) (ix3 ⟨t.val / 8, hb⟩ ⟨(t.val % 8) * 256 + r.val, hr⟩ j) rfl rfl rfl,
    iblk2_apply V c t (ix3 0 0 j) (ix3 ⟨t.val / 8, hb⟩ 0 j) rfl rfl]
  rfl

/-- The output array after the region: `G`.  Every index lies in the block of the point `8 (x 0) + (x 1) / 256`, and every
    point writes its block back. -/
theorem lap_final (c : Dev nD) : (dat1 (F := Ideal) V c).arrAt 3 cfg1.N = G V c :=
  (dat1 V c).arrAt_eq_of_cover 3 (G V c) (fun t _ => flushed_eq V c t) fun (x : S16x2048x2048.Idx) => by
    have hx0 : (x 0).val < 16 := (x 0).isLt
    have hx1 : (x 1).val < 2048 := (x 1).isLt
    have hx2 : (x 2).val < 2048 := (x 2).isLt
    have ht : (x 0).val * 8 + (x 1).val / 256 < cfg1.N := by rw [show cfg1.N = 128 from N_1]; omega
    obtain ⟨h0, h1, h2⟩ := idx1_3 ⟨(x 0).val * 8 + (x 1).val / 256, ht⟩
    have h0' : win1_3.index ⟨(x 0).val * 8 + (x 1).val / 256, ht⟩ 0 = ((x 0).val * 8 + (x 1).val / 256) / 8 := h0
    have h1' : win1_3.index ⟨(x 0).val * 8 + (x 1).val / 256, ht⟩ 1 = ((x 0).val * 8 + (x 1).val / 256) % 8 := h1
    refine ⟨⟨(x 0).val * 8 + (x 1).val / 256, ht⟩, flush1_3 _, ?_⟩
    show x ∈ ((View.whole main_v4).slice (win1_3.rect ⟨(x 0).val * 8 + (x 1).val / 256, ht⟩)).set
    rw [View.set_slice_whole, Rect.mem_set_unit]
    intro a
    match a with
    | ⟨0, _⟩ =>
      show win1_3.index ⟨(x 0).val * 8 + (x 1).val / 256, ht⟩ 0 * 1 ≤ (x 0 : Nat)
        ∧ (x 0 : Nat) < win1_3.index ⟨(x 0).val * 8 + (x 1).val / 256, ht⟩ 0 * 1 + 1
      rw [h0']; omega
    | ⟨1, _⟩ =>
      show win1_3.index ⟨(x 0).val * 8 + (x 1).val / 256, ht⟩ 1 * 256 ≤ (x 1 : Nat)
        ∧ (x 1 : Nat) < win1_3.index ⟨(x 0).val * 8 + (x 1).val / 256, ht⟩ 1 * 256 + 256
      rw [h1']; omega
    | ⟨2, _⟩ =>
      show win1_3.index ⟨(x 0).val * 8 + (x 1).val / 256, ht⟩ 2 * 2048 ≤ (x 2 : Nat)
        ∧ (x 2 : Nat) < win1_3.index ⟨(x 0).val * 8 + (x 1).val / 256, ht⟩ 2 * 2048 + 2048
      rw [h2]; omega

end Cert.KernelIdeal.Val

end
-- ==== Proof.ReshapeRead.lean ====
/-
  The three host reshapes between the two regions, read at an index.

  The first region's output, a [16, 1, 2048] array of scalings, is flattened to [16, 2048]; that matrix is then
  viewed as a [16, 2048, 1] array of columns and as a [16, 1, 2048] array of rows.  A reshape keeps the row-major
  order of the elements, and in all four shapes the element of graph b and node i sits at position b * 2048 + i;
  so the column array at (b, i, 0) and the row array at (b, 0, i) both hold the first region's output at (b, 0, i).
  No reshape writes the adjacency array.
-/
import proofs.«171109_j249108103362_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

noncomputable section

namespace Cert.KernelIdeal.Val

open Cert.KernelIdeal Cert.KernelIdeal.Gen Idealize.ShloMosaic Idealize.ShloMosaic.TcCoe Idealize.ShloMosaic.ValueIdx

variable [Cert.KernelIdeal.Facts]

variable {α : Type}

/-- An [a, 1, b] array cast to [a, b] reads, at (i, j), the operand at (i, 0, j). -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An [a, b] array cast to [a, b, 1] reads, at (i, j, 0), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (z : Fin 1) :
    shapeCast ⟨3, ![a, b, 1]⟩ x h (ix3 i j z) = x (ix2 i j) :=
  shapeCast_apply x h _ _ (by
    have hz : z.val = 0 := by omega
    rw [Shape.rowMajor_val_three, Shape.rowMajor_val_two]
    show i.val * b + j.val = (i.val * b + j.val) * 1 + z.val
    rw [hz, Nat.mul_one, Nat.add_zero])

/-- The column array after the reshapes, as casts of the first region's output. -/
theorem after_v2 (W : Valuation τ sig (Elt Ideal)) :
    (StableHlo.after (hostOps1 (F := Ideal)) W (Proc.devRef .tc main_v2) : S16x2048x1.Idx → EReal)
      = shapeCast S16x2048x1 (shapeCast S16x2048 (W (Proc.devRef .tc main_v0) : S16x1x2048.Idx → EReal)
          shapeCasts_S16x1x2048_S16x2048) shapeCasts_S16x2048_S16x2048x1 := by
  simp only [hostOps1]
  after_results
  rfl

/-- The column array at (b, i, 0) is the first region's output at (b, 0, i). -/
theorem reshape_col (W : Valuation τ sig (Elt Ideal)) (b : Fin 16) (i : Fin 2048) :
    (StableHlo.after (hostOps1 (F := Ideal)) W (Proc.devRef .tc main_v2) : S16x2048x1.Idx → EReal) (ix3 b i 0)
      = (W (Proc.devRef .tc main_v0) : S16x1x2048.Idx → EReal) (ix3 b 0 i) := by
  rw [after_v2]
  refine (shapeCast_ab_ab1_apply _ shapeCasts_S16x2048_S16x2048x1 b i 0).trans ?_
  exact shapeCast_a1b_ab_apply _ shapeCasts_S16x1x2048_S16x2048 b i

/-- The row array after the reshapes, as casts of the first region's output. -/
theorem after_v3 (W : Valuation τ sig (Elt Ideal)) :
    (StableHlo.after (hostOps1 (F := Ideal)) W (Proc.devRef .tc main_v3) : S16x1x2048.Idx → EReal)
      = shapeCast S16x1x2048 (shapeCast S16x2048 (W (Proc.devRef .tc main_v0) : S16x1x2048.Idx → EReal)
          shapeCasts_S16x1x2048_S16x2048) shapeCasts_S16x2048_S16x1x2048 := by
  simp only [hostOps1]
  after_results
  rfl

/-- The row array at (b, 0, j) is the first region's output at (b, 0, j): both sit at position b * 2048 + j, as
    does the matrix's (b, j) between them. -/
theorem reshape_row (W : Valuation τ sig (Elt Ideal)) (b : Fin 16) (j : Fin 2048) :
    (StableHlo.after (hostOps1 (F := Ideal)) W (Proc.devRef .tc main_v3) : S16x1x2048.Idx → EReal) (ix3 b 0 j)
      = (W (Proc.devRef .tc main_v0) : S16x1x2048.Idx → EReal) (ix3 b 0 j) := by
  rw [after_v3]
  refine (shapeCast_apply _ shapeCasts_S16x2048_S16x1x2048 (ix3 b 0 j) (ix2 b j) ?_).trans ?_
  · rw [Shape.rowMajor_val_two, Shape.rowMajor_val_three]
    show b.val * 2048 + j.val = (b.val * 1 + 0) * 2048 + j.val
    omega
  · exact shapeCast_a1b_ab_apply _ shapeCasts_S16x1x2048_S16x2048 b j

/-- No reshape writes the adjacency array. -/
theorem reshape_keeps_arg (W : Valuation τ sig (Elt Ideal)) :
    StableHlo.after (hostOps1 (F := Ideal)) W (Proc.devRef .tc main_arg0) = W (Proc.devRef .tc main_arg0) := by
  simp only [hostOps1]
  after_results

end Cert.KernelIdeal.Val

end
-- ==== Proof.KernelValue.lean ====
/-
  The kernel's result array as one function of the adjacency array, at the extended reals.

  The second region's output is, index by index, the identity's entry minus the adjacency entry scaled by the row's
  and the column's scalings, as it finds them in the two reshaped copies of the first region's output; the first
  region's output is the reciprocal square root of every column's degree; the reshapes between them move entry
  `(b, 0, i)` to `(b, i, 0)` and to `(b, 0, i)`; and the adjacency array reaches the second region as launched.
  Composed: the result is the normalized Laplacian under the one-step scaling (`Cert.Lap.scaleK`).
-/
import proofs.«171109_j249108103362_2_alg».proof.Proof.Run
import proofs.«171109_j249108103362_2_alg».proof.Proof.DegValue
import proofs.«171109_j249108103362_2_alg».proof.Proof.LapValue
import proofs.«171109_j249108103362_2_alg».proof.Proof.ReshapeRead
import proofs.«171109_j249108103362_2_alg».proof.Proof.Spec

set_option maxRecDepth 16384

noncomputable section

namespace Cert.KernelIdeal.Val

open Cert.KernelIdeal Cert.KernelIdeal.Gen Cert.KernelIdeal.Frame Cert.Lap
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The adjacency array as launched on core `c`. -/
abbrev adj (c : Dev nD) : S16x2048x2048.Idx → EReal := m ((c.tc : Thread nD τ).loc main_arg0)

/-- The first region's output, as the second boundary holds it: the scalings. -/
theorem scalings_at (c : Dev nD) (b : Fin 16) (j : Fin 2048) :
    (W1 m c (Proc.devRef .tc main_v0) : S16x1x2048.Idx → EReal) (ix3 b 0 j) = scaleK (adj m c) b j := by
  have h := congrFun ((W1_arr m c 1).trans (deg_final (V0 m) c)) (ix3 b 0 j)
  exact h.trans (degOut_apply _ b j)

/-- The adjacency array reaches the second region as launched. -/
theorem adj_at_entry (c : Dev nD) : (V2 m c main_arg0 : S16x2048x2048.Idx → EReal) = adj m c :=
  (reshape_keeps_arg (W1 m c)).trans ((W1_arr m c 0).trans (((dat0 (V0 m) c).arrAt_in 0 rfl _).trans (A_eq0 (V0 m) c 0)))

/-- THE KERNEL'S RESULT: the second region's output array after its run is the Laplacian under the one-step scaling. -/
theorem result_eq (c : Dev nD) : (dat1 (V2 m) c).arrAt 3 cfg1.N = out (scaleK (adj m c)) (adj m c) := by
  rw [lap_final (V2 m) c]
  funext x
  obtain ⟨b, i, j, rfl⟩ : ∃ (b : Fin 16) (i j : Fin 2048), x = ix3 b i j := ⟨x 0, x 1, x 2, eq_ix3 x⟩
  rw [G_apply, out_apply]
  unfold lap
  rw [show arrA (V2 m) c = adj m c from adj_at_entry m c,
    show arrR (V2 m) c (ix3 b i 0) = scaleK (adj m c) b i from (reshape_col (W1 m c) b i).trans (scalings_at m c b i),
    show arrC (V2 m) c (ix3 b 0 j) = scaleK (adj m c) b j from (reshape_row (W1 m c) b j).trans (scalings_at m c b j)]

/-- The kernel's run, read: the result array at the Laplacian of the launched adjacency array, which ends unchanged. -/
theorem run_value : θ_run defs (onTc (τ := τ) (main (F := Ideal))) ⟨m, fun _ => 0, ρ⟩ (fun r => ∀ c : Dev nD,
      r.2.mem ((c.tc : Thread nD τ).loc main_v4) = out (scaleK (adj m c)) (adj m c)
      ∧ r.2.mem ((c.tc : Thread nD τ).loc main_arg0) = m ((c.tc : Thread nD τ).loc main_arg0)) :=
  (θ_run defs _ _).mono (fun _ h c => ⟨(h c).1.trans (result_eq m c), (h c).2⟩) (run (F := Ideal) m ρ)

end Cert.KernelIdeal.Val

end
-- ==== Proof.RefSide.lean ====
/-
  The reference program read as the Laplacian with the quotient scaling.

  The reference sums each column of the adjacency array over its rows, takes one over the square root of that degree, and
  multiplies the array by the scaling of its row on one side and of its column on the other; it subtracts the product from the
  identity matrix, which it builds by comparing a row counter with a column counter and converting the truth value to a
  number.  Read one element at a time this is `eye(i,j) - (d(b,i) · A(b,i,j)) · d(b,j)` with `d = 1 / sqrt(colSum)`.
-/
import proofs.«171109_j249108103362_2_alg».proof.Proof.Spec
import proofs.«171109_j249108103362_2_alg».proof.Proof.Gen.ReferenceIdeal.Read

noncomputable section

namespace Cert.Lap

open Idealize.ShloMosaic Idealize.ShloMosaic.ValueIdx Cert.ReferenceIdeal Cert.ReferenceIdeal.Read

/-- The single-precision word of one denotes the extended real `1`. -/
theorem ofBits_one_f32 : Ideal.ofBits .f32 0x3F800000#32 = 1 := by
  simp [Ideal.ofBits, Ideal.ieee, -EReal.coe_mul]; norm_num

/-- Two 32-bit words of numbers below 2048 are equal only if the numbers are. -/
theorem ofNat32_inj (i j : Fin 2048) (h : BitVec.ofNat 32 i.val = BitVec.ofNat 32 j.val) : i = j := by
  have hi := i.isLt
  have hj := j.isLt
  have e := congrArg BitVec.toNat h
  simp only [BitVec.toNat_ofNat] at e
  exact Fin.ext (by omega)

/-- The identity's entry as the reference builds it: the row counter (plus the zero word) compared for equality with the
    column counter, and the one-bit answer read as an unsigned number. -/
theorem eye_word (i j : Fin 2048) :
    FloatOps.uitofp (F := Ideal) .f32
        (IntOp.cmpi .eq (IntOp.addi (BitVec.ofNat 32 i.val) 0#32) (BitVec.ofNat 32 j.val)) = eye i j := by
  show (((IntOp.cmpi .eq (IntOp.addi (BitVec.ofNat 32 i.val) 0#32) (BitVec.ofNat 32 j.val)).toNat : ℝ) : EReal) = eye i j
  unfold eye IntOp.cmpi IntOp.addi
  rw [BitVec.add_zero]
  by_cases h : i = j
  · subst h
    simp
  · have hne : ¬ BitVec.ofNat 32 i.val = BitVec.ofNat 32 j.val := fun e => h (ofNat32_inj i j e)
    rw [if_neg h]
    simp [hne]

/-- The reference's scaling at graph `b` and column `j`: one over the square root of the column's degree. -/
theorem ref_scale (A : (⟨S16x2048x2048, .f32⟩ : BufTy).Contents (Elt Ideal)) (b : Fin 16) (j : Fin 2048) :
    val_main_v3 (F := Ideal) A (ix2 b j) = scaleR A b j := by
  rw [val_main_v3_apply, val_main_v2_apply, val_main_cst_0_apply, val_main_v1_apply, val_main_v0_apply,
    val_main_cst_apply]
  simp only [Ideal.hostDivf_def, Ideal.hostUnary_sqrt_def, Ideal.ofBits_def, Ideal.ofBits_zero_f32, ofBits_one_f32,
    zero_add]
  have hidx : ∀ k : Fin 2048, idx_main_v0 (ix2 b j) k = ix3 b k j := fun k =>
    funext fun a => by match a with | ⟨0, _⟩ => rfl | ⟨1, _⟩ => rfl | ⟨2, _⟩ => rfl
  simp only [hidx]
  rfl

/-- The reference's identity matrix at `(b, i, j)`. -/
theorem ref_eye (b : Fin 16) (i j : Fin 2048) : val_main_v17 (F := Ideal) (ix3 b i j) = eye i j := by
  rw [val_main_v17_apply, val_main_v16_apply, val_main_v9_apply, val_main_v8_apply, val_main_v7_apply,
    val_main_v4_apply, val_main_v6_apply, val_main_c_apply, val_main_v5_apply]
  exact eye_word i j

/-- The reference's result is the Laplacian under the quotient scaling. -/
theorem ref_eq (A : (⟨Cert.ReferenceIdeal.S16x2048x2048, .f32⟩ : BufTy).Contents (Elt Ideal)) :
    Cert.ReferenceIdeal.Read.val_main_v18 (F := Ideal) A = out (scaleR A) A := by
  funext x
  obtain ⟨b, i, j, rfl⟩ : ∃ (b : Fin 16) (i : Fin 2048) (j : Fin 2048), x = ix3 b i j := ⟨x 0, x 1, x 2, eq_ix3 x⟩
  have hrow : idx_main_v10 (idx_main_v11 (ix3 b i j)) = ix2 b i :=
    funext fun a => by match a with | ⟨0, _⟩ => rfl | ⟨1, _⟩ => rfl
  have hcol : idx_main_v13 (idx_main_v14 (ix3 b i j)) = ix2 b j :=
    funext fun a => by match a with | ⟨0, _⟩ => rfl | ⟨1, _⟩ => rfl
  rw [out_apply, val_main_v18_apply, val_main_v15_apply, val_main_v12_apply, val_main_v11_apply, val_main_v10_apply,
    val_main_v14_apply, val_main_v13_apply, ref_eye, hrow, hcol, ref_scale, ref_scale]
  simp only [Ideal.subf_def, Ideal.mulf_def]
  rfl

end Cert.Lap

end
-- ==== Proof.Domain.lean ====
/-
  The one algebraic law of the normalized Laplacian and the domain on which it holds.

  Over the extended reals the reciprocal square root taken in one step and the quotient `1 / sqrt` agree at every
  non-negative argument: at `0` both are `⊤`, at `⊤` both are `0`, and at a positive real `r` both are the real
  `(√r)⁻¹`.  Below zero they differ, so the law is stated under `0 ≤ x`.  With it the two scalings of the degree agree
  wherever every column sum is non-negative, and so do the two Laplacians built from them.

  The domain itself is read off the precondition: its second conjunct compares every column sum with zero and asks that
  all the comparisons hold, so under the precondition every degree is non-negative.
-/
import proofs.«171109_j249108103362_2_alg».proof.Proof.Spec
import proofs.«171109_j249108103362_2_alg».proof.Pre_finite_inputs
import proofs.«171109_j249108103362_2_alg».proof.Proof.Gen.Pre_finite_inputs
import Idealize.ShloMosaic.Lib.ReduceAll
import Idealize.ShloMosaic.PureOps.Ideal.Laws

noncomputable section

namespace Cert.Lap

open Idealize.ShloMosaic Idealize.ShloMosaic.ValueIdx

/-- On a non-negative extended real the reciprocal square root is one over the square root. -/
theorem rsqrt_eq_div_sqrt (x : EReal) (h : 0 ≤ x) : Ideal.rsqrt x = Ideal.div 1 (Ideal.sqrt x) := by
  induction x using EReal.rec with
  | bot => exact absurd h (by simp)
  | top => simp [Ideal.div]
  | coe r =>
    have hr : 0 ≤ r := by exact_mod_cast h
    rcases hr.eq_or_lt with h0 | hpos
    · rw [← h0, Ideal.rsqrt_coe, Ideal.sqrt_coe, if_neg (lt_irrefl _), if_neg (lt_irrefl _), if_pos rfl,
        Real.sqrt_zero, EReal.coe_zero]
      simp [Ideal.div]
    · have hs : Real.sqrt r ≠ 0 := (Real.sqrt_pos.mpr hpos).ne'
      rw [Ideal.rsqrt_coe, Ideal.sqrt_coe, if_neg (not_lt.mpr hr), if_neg (not_lt.mpr hr), if_neg hpos.ne',
        Ideal.div_coe hs, one_mul, one_div]

/-- The two scalings agree at a column whose degree is non-negative. -/
theorem scale_eq (A : SA.Idx → EReal) (b : Fin 16) (j : Fin 2048) (h : 0 ≤ colSum A b j) :
    scaleK A b j = scaleR A b j :=
  rsqrt_eq_div_sqrt _ h

/-- Where every degree is non-negative the two Laplacians are the same array. -/
theorem out_scale_eq (A : SA.Idx → EReal) (hdeg : ∀ (b : Fin 16) (j : Fin 2048), 0 ≤ colSum A b j) :
    out (scaleK A) A = out (scaleR A) A := by
  funext x
  unfold out lap
  rw [scale_eq A _ _ (hdeg _ _), scale_eq A _ _ (hdeg _ _)]

/-- An ordered "greater or equal" comparison of extended reals that answers the bit `1` says the order holds. -/
theorem le_of_cmp_oge {x y : EReal} (h : Ideal.cmp .oge x y = 1#1) : y ≤ x := by
  by_contra hn
  have h0 : Ideal.cmp .oge x y = 0#1 := by simp [Ideal.cmp, hn]
  rw [h0] at h
  exact absurd h (by decide)

/-- Under the precondition every column sum is non-negative: the precondition is the conjunction of two "for all" tests,
    the second of which is `0 ≤ Σ_i A(b,i,j)` at every `(b, j)`. -/
theorem colSum_nonneg_of_pre (A : FVec Ideal Cert.Pre_finite_inputs.S16x2048x2048 .f32)
    (h : Cert.Pre_finite_inputs.fn (F := Ideal) A = fun _ => 1#1) : ∀ (b : Fin 16) (j : Fin 2048), 0 ≤ colSum A b j := by
  intro b j
  haveI : Subsingleton Cert.Pre_finite_inputs.S_.Idx := ⟨fun _ _ => funext fun d => d.elim0⟩
  have h0 := congrFun h ValueIdx.ix0
  dsimp only [Cert.Pre_finite_inputs.fn] at h0
  obtain ⟨_, h2⟩ := IntOp.andi_eq_one.1 h0
  have h3 := Host.reduce_andi_all _ _ _ _ _ h2 (ix2 b j)
  have h4 : Ideal.cmp .oge (Host.reduceAdd (F := Ideal) A (constant Cert.Pre_finite_inputs.S_ .f32 0x00000000#32)
      Cert.Pre_finite_inputs.Facts.reducesTo_S16x2048x2048_S16x2048_d1 Cert.Pre_finite_inputs.Facts.h_S_ (ix2 b j))
      (Ideal.ofBits .f32 0x00000000#32) = 1#1 := h3
  simp only [Host.reduceAdd, Ideal.hostReduceAdd_def] at h4
  rw [Ideal.hostReduceAdd_single Cert.Pre_finite_inputs.Facts.reducesTo_S16x2048x2048_S16x2048_d1 (by decide)] at h4
  have h5 := le_of_cmp_oge h4
  rw [Ideal.ofBits_zero_f32] at h5
  refine h5.trans_eq ?_
  show Ideal.ofBits .f32 0x00000000#32 + _ = _
  rw [Ideal.ofBits_zero_f32, zero_add]
  unfold colSum
  exact Finset.sum_congr rfl fun k _ => congrArg A (funext fun a => Fin.ext (by
    match a with | ⟨0, _⟩ => rfl | ⟨1, _⟩ => rfl | ⟨2, _⟩ => rfl))

end Cert.Lap

end
-- ==== Proof.lean ====
/-
  The normalized graph Laplacian `L = I − D^{−1/2} A D^{−1/2}` of sixteen 2048 × 2048 adjacency matrices, computed by two
  kernel regions against a plain array program: the proof of the five claims.

  The kernel takes the degrees (column sums) in a first region, block by block of 512 rows into an accumulator, and
  stores `rsqrt(degree)`; three host reshapes make a column copy and a row copy of that vector; a second region writes,
  tile by tile of 256 rows, `eye − (d_i · A_ij) · d_j`.  The reference computes `d = 1 / sqrt(degree)` and the same
  expression on whole arrays.

  * The three frames.  Each program runs to the end from any memory, faults nowhere and leaves the adjacency array as
    launched.  For the two kernel programs this is the run of `Proof/Run.lean` (one text at any float instance, once per
    program's namespace): each region's body triple and proof data (`Proof/DegBody.lean`, `Proof/LapBody.lean`), the
    regions and the reshapes chained from boundary to boundary.  For the reference it is its generated run.
  * `preserves`: the idealization rewrote nothing, so there is nothing to state.
  * `algebraic`.  At the extended reals the kernel's result array is the Laplacian under the scaling
    `rsqrt(degree)` (`Proof/KernelValue.lean`: the accumulator's four partial sums are the column's sum, the written-back
    blocks cover both regions' output arrays), and the reference's is the Laplacian under `1 / sqrt(degree)`
    (`Proof/RefSide.lean`).  The two scalings agree exactly where the degree is non-negative (`Proof/Domain.lean`:
    at 0 both are +∞, on the positive reals both are `(√x)⁻¹`; below zero the first is ⊥ and the second `1/⊥ = 0`),
    and the precondition says every degree is non-negative.  No finiteness is used.
-/
import proofs.«171109_j249108103362_2_alg».proof.Defs
import proofs.«171109_j249108103362_2_alg».proof.Proof.Gen.Kernel
import proofs.«171109_j249108103362_2_alg».proof.Proof.Gen.KernelIdeal
import proofs.«171109_j249108103362_2_alg».proof.Proof.Gen.ReferenceIdeal
import proofs.«171109_j249108103362_2_alg».proof.Proof.Gen.Pre_finite_inputs
import proofs.«171109_j249108103362_2_alg».proof.Proof.Gen.ReferenceIdeal.Read
import proofs.«171109_j249108103362_2_alg».proof.Proof.RunW
import proofs.«171109_j249108103362_2_alg».proof.Proof.KernelValue
import proofs.«171109_j249108103362_2_alg».proof.Proof.RefSide
import proofs.«171109_j249108103362_2_alg».proof.Proof.Domain
import Idealize.ShloMosaic.Adequacy
import Idealize.ShloMosaic.Init

noncomputable section

namespace Cert.Proof

open Idealize.ShloMosaic Idealize.SL.Sem

/-- The word-level kernel program runs and keeps its argument. -/
theorem frame_kernel : Cert.frame_Kernel := fun m ρ _ => Cert.Kernel.Frame.frame (F := Bits) m ρ

/-- The idealized kernel program runs and keeps its argument. -/
theorem frame_kernelIdeal : Cert.frame_KernelIdeal := fun m ρ _ => Cert.KernelIdeal.Frame.frame (F := Ideal) m ρ

/-- The reference runs and keeps its argument: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the Laplacian of the adjacency array they agree on: the kernel's under the
    one-step scaling, the reference's under `1 / sqrt`, equal where every degree is non-negative. -/
theorem algebraic : Cert.algebraic_KernelIdeal_ReferenceIdeal := by
  intro m ρ m' ρ' hpre hagree
  refine ⟨fun c => Cert.Lap.out (Cert.Lap.scaleK (Cert.KernelIdeal.Val.adj m c)) (Cert.KernelIdeal.Val.adj m c),
    Cert.KernelIdeal.Val.run_value m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v18_eq _).trans ?_
  rw [Cert.Lap.ref_eq, hagree c]
  exact (Cert.Lap.out_scale_eq _ (Cert.Lap.colSum_nonneg_of_pre _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
